-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x128 : Shape := ⟨4, ![2, 16, 2048, 128]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel

variable [Facts]

def fn {F : FTy → Type} [FloatOps F] (main_arg0 : FVec F S2x16x2048x128 .f32) (main_arg1 : FVec F S2x16x2048x128 .f32) (main_arg2 : FVec F S2x16x2048x128 .f32) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x2048x128 .f32 := Host.absf main_arg1
  let main_cst_0 : FVec F S_ .f32 := constant S_ .f32 0x7F800000#32
  let main_v5 : FVec F S2x16x2048x128 .f32 := broadcastInDim S2x16x2048x128 ![] bcast_S_S2x16x2048x128 main_cst_0
  let main_v6 : IVec S2x16x2048x128 1 := cmpf .olt main_v4 main_v5
  let main_c_1 : IVec S_ 1 := constantI S_ 1 1#1
  let main_v7 : IVec S_ 1 := (fun x v => Host.reduce IntOp.andi x v reducesTo_S2x16x2048x128_S_d0_1_2_3 h_S_) main_v6 main_c_1
  let main_v8 : IVec S_ 1 := andi main_v3 main_v7
  let main_v9 : FVec F S2x16x2048x128 .f32 := Host.absf main_arg2
  let main_cst_2 : FVec F S_ .f32 := constant S_ .f32 0x7F800000#32
  let main_v10 : FVec F S2x16x2048x128 .f32 := broadcastInDim S2x16x2048x128 ![] bcast_S_S2x16x2048x128 main_cst_2
  let main_v11 : IVec S2x16x2048x128 1 := cmpf .olt main_v9 main_v10
  let main_c_3 : IVec S_ 1 := constantI S_ 1 1#1
  let main_v12 : IVec S_ 1 := (fun x v => Host.reduce IntOp.andi x v reducesTo_S2x16x2048x128_S_d0_1_2_3 h_S_) main_v11 main_c_3
  let main_v13 : IVec S_ 1 := andi main_v8 main_v12
  main_v13
-- ==== Kernel.lean ====
abbrev S2x16x2048x128 : Shape := ⟨4, ![2, 16, 2048, 128]⟩
abbrev S6 : Shape := ⟨1, ![6]⟩
abbrev S32x2048x128 : Shape := ⟨3, ![32, 2048, 128]⟩
abbrev S1x1024x128 : Shape := ⟨3, ![1, 1024, 128]⟩
abbrev S1 : Shape := ⟨1, ![1]⟩
abbrev S1x512x128 : Shape := ⟨3, ![1, 512, 128]⟩
abbrev S1024x128 : Shape := ⟨2, ![1024, 128]⟩
abbrev S512x128 : Shape := ⟨2, ![512, 128]⟩
abbrev S1024 : Shape := ⟨1, ![1024]⟩
abbrev S1024x1 : Shape := ⟨2, ![1024, 1]⟩
abbrev S512 : Shape := ⟨1, ![512]⟩
abbrev S512x1 : Shape := ⟨2, ![512, 1]⟩
abbrev S1x512 : Shape := ⟨2, ![1, 512]⟩
abbrev S1024x512 : Shape := ⟨2, ![1024, 512]⟩

abbrev nBuf : Space → Nat
  | .hbm => 8
  | .vmem => 8
  | .smem => 2
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S32x2048x128, .f32⟩
  | .hbm, ⟨4, _⟩ => ⟨S32x2048x128, .f32⟩
  | .hbm, ⟨5, _⟩ => ⟨S32x2048x128, .f32⟩
  | .hbm, ⟨6, _⟩ => ⟨S32x2048x128, .f32⟩
  | .hbm, ⟨7, _⟩ => ⟨S2x16x2048x128, .f32⟩
  | .local _ .vmem, ⟨0, _⟩ => ⟨S1x1024x128, .f32⟩
  | .local _ .vmem, ⟨1, _⟩ => ⟨S1x1024x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x1024x128, .f32⟩
  | .local _ .vmem, ⟨7, _⟩ => ⟨S1x1024x128, .f32⟩
  | .local _ .smem, ⟨0, _⟩ => ⟨S6, .i32⟩
  | .local _ .smem, ⟨1, _⟩ => ⟨S6, .i32⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 6], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S6) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S6) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S6) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S6.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S6) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x16x2048x128_S32x2048x128 : S2x16x2048x128.ShapeCasts S32x2048x128
  numel1_S1 : S1.numel = 1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  reduces_S1024x128_S1024 : S1024x128.Reduces [1] S1024
  shapeCasts_S1024_S1024x1 : S1024.ShapeCasts S1024x1
  reduces_S512x128_S512 : S512x128.Reduces [1] S512
  shapeCasts_S512_S512x1 : S512.ShapeCasts S512x1
  transposes_S512x1_p1_0_S1x512 : S512x1.Transposes [1, 0] S1x512
  bitsLt_bf16_f32 : FTy.bits .bf16 < FTy.bits .f32
  broadcasts_S1024x1_S1024x512 : S1024x1.Broadcasts S1024x512
  broadcasts_S1x512_S1024x512 : S1x512.Broadcasts S1024x512
  iota_S1024x1_d0_w32 : S1024x1.Iotas .tc 32 [0]
  iota_S1x512_d1_w32 : S1x512.Iotas .tc 32 [1]
  shapeCasts_S32x2048x128_S2x16x2048x128 : S32x2048x128.ShapeCasts S2x16x2048x128
  dot_S1024x128_S512x128_S1024x512_1_1_0_0_n_n_wf : DotDims.WF S1024x128 S512x128 S1024x512 [1] [1] [0] [0] [] []
  dot_S1024x512_S512x128_S1024x128_1_0_0_1_n_n_wf : DotDims.WF S1024x512 S512x128 S1024x128 [1] [0] [0] [1] [] []
  hrank0 : 0 < grid0.rank
  k0_off1_inb : ∀ i : grid0.Coords, ∀ a, (k0_off1 i) a + S1.size a ≤ S6.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def dot_S1024x128_S512x128_S1024x512_1_1_0_0_n_n : DotDims S1024x128 S512x128 S1024x512 where
  lhsContracting := [1]
  rhsContracting := [1]
  lhsNonContracting := [0]
  rhsNonContracting := [0]
  lhsBatch := []
  rhsBatch := []
  wf := dot_S1024x128_S512x128_S1024x512_1_1_0_0_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev spec0_0 : Pipeline.WinSpec sig grid0.rank :=
  Pipeline.WinSpec.ofSpec (Memref.whole main_v0) S1x1024x128.size reads0_0 false false 2 stage0_0 sem0_0 nbuf0_0 hstage0_0

abbrev spec0_1 : Pipeline.WinSpec sig grid0.rank :=
  Pipeline.WinSpec.ofSpec (Memref.whole main_v1) S1x512x128.size reads0_1 false false 2 stage0_1 sem0_1 nbuf0_1 hstage0_1

abbrev spec0_2 : Pipeline.WinSpec sig grid0.rank :=
  Pipeline.WinSpec.ofSpec (Memref.whole main_v2) S1x512x128.size reads0_2 false false 2 stage0_2 sem0_2 nbuf0_2 hstage0_2

abbrev spec0_3 : Pipeline.WinSpec sig grid0.rank :=
  Pipeline.WinSpec.ofSpec (Memref.whole main_v3) S1x1024x128.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1024x128.size a ≤ S32x2048x128.size a), EltTy.bits .f32 = 32 ∨ (Rect.block (s := S32x2048x128) S1x1024x128.size (cc0_transform_0 k0_off1_inb numel1_S1 pf i) h).WholeWords (EltTy.packing .f32)) ∧
  (∀ i : grid0.Coords, ∃ h : (∀ a, (cc0_transform_1 k0_off1_inb numel1_S1 pf i a + 1) * S1x512x128.size a ≤ S32x2048x128.size a), EltTy.bits .f32 = 32 ∨ (Rect.block (s := S32x2048x128) S1x512x128.size (cc0_transform_1 k0_off1_inb numel1_S1 pf i) h).WholeWords (EltTy.packing .f32)) ∧
  (∀ i : grid0.Coords, ∃ h : (∀ a, (cc0_transform_2 k0_off1_inb numel1_S1 pf i a + 1) * S1x512x128.size a ≤ S32x2048x128.size a), EltTy.bits .f32 = 32 ∨ (Rect.block (s := S32x2048x128) S1x512x128.size (cc0_transform_2 k0_off1_inb numel1_S1 pf i) h).WholeWords (EltTy.packing .f32)) ∧
  (∀ i : grid0.Coords, ∃ h : (∀ a, (cc0_transform_3 k0_off1_inb numel1_S1 pf i a + 1) * S1x1024x128.size a ≤ S32x2048x128.size a), EltTy.bits .f32 = 32 ∨ (Rect.block (s := S32x2048x128) S1x1024x128.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S2x16x2048x128 : Shape := ⟨4, ![2, 16, 2048, 128]⟩
abbrev S_ : Shape := ⟨0, ![]⟩
abbrev S2x16x2048 : Shape := ⟨3, ![2, 16, 2048]⟩
abbrev S2x16x2048x2048 : Shape := ⟨4, ![2, 16, 2048, 2048]⟩
abbrev S2x16x2048x1 : Shape := ⟨4, ![2, 16, 2048, 1]⟩
abbrev S2x16x1x2048 : Shape := ⟨4, ![2, 16, 1, 2048]⟩
abbrev S2048x2048 : Shape := ⟨2, ![2048, 2048]⟩

abbrev nBuf : Space → Nat
  | .hbm => 45
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S2x16x2048x128, .f32⟩
  | .hbm, ⟨4, _⟩ => ⟨S_, .f32⟩
  | .hbm, ⟨5, _⟩ => ⟨S2x16x2048, .f32⟩
  | .hbm, ⟨6, _⟩ => ⟨S_, .f32⟩
  | .hbm, ⟨7, _⟩ => ⟨S2x16x2048, .f32⟩
  | .hbm, ⟨8, _⟩ => ⟨S2x16x2048, .f32⟩
  | .hbm, ⟨9, _⟩ => ⟨S2x16x2048x128, .f32⟩
  | .hbm, ⟨10, _⟩ => ⟨S_, .f32⟩
  | .hbm, ⟨11, _⟩ => ⟨S2x16x2048, .f32⟩
  | .hbm, ⟨12, _⟩ => ⟨S_, .f32⟩
  | .hbm, ⟨13, _⟩ => ⟨S2x16x2048, .f32⟩
  | .hbm, ⟨14, _⟩ => ⟨S2x16x2048, .f32⟩
  | .hbm, ⟨15, _⟩ => ⟨S2x16x2048x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x16x2048x2048, .f32⟩
  | .hbm, ⟨20, _⟩ => ⟨S2x16x2048x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x1x2048, .f32⟩
  | .hbm, ⟨25, _⟩ => ⟨S2x16x2048x2048, .f32⟩
  | .hbm, ⟨26, _⟩ => ⟨S2x16x2048x2048, .f32⟩
  | .hbm, ⟨27, _⟩ => ⟨S_, .i1⟩
  | .hbm, ⟨28, _⟩ => ⟨S2048x2048, .i1⟩
  | .hbm, ⟨29, _⟩ => ⟨S2048x2048, .i32⟩
  | .hbm, ⟨30, _⟩ => ⟨S_, .i32⟩
  | .hbm, ⟨31, _⟩ => ⟨S2048x2048, .i32⟩
  | .hbm, ⟨32, _⟩ => ⟨S2048x2048, .i32⟩
  | .hbm, ⟨33, _⟩ => ⟨S2048x2048, .i32⟩
  | .hbm, ⟨34, _⟩ => ⟨S2048x2048, .i1⟩
  | .hbm, ⟨35, _⟩ => ⟨S_, .i1⟩
  | .hbm, ⟨36, _⟩ => ⟨S2048x2048, .i1⟩
  | .hbm, ⟨37, _⟩ => ⟨S2048x2048, .i1⟩
  | .hbm, ⟨38, _⟩ => ⟨S_, .f32⟩
  | .hbm, ⟨39, _⟩ => ⟨S_, .f32⟩
  | .hbm, ⟨40, _⟩ => ⟨S2x16x2048x2048, .i1⟩
  | .hbm, ⟨41, _⟩ => ⟨S2x16x2048x2048, .f32⟩
  | .hbm, ⟨42, _⟩ => ⟨S2x16x2048x2048, .f32⟩
  | .hbm, ⟨43, _⟩ => ⟨S2x16x2048x2048, .f32⟩
  | .hbm, ⟨44, _⟩ => ⟨S2x16x2048x128, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_c_0 : Ref sig .tc := ⟨.hbm, 35, rfl⟩
abbrev main_call0_v5 : Ref sig .tc := ⟨.hbm, 36, rfl⟩
abbrev main_v19 : Ref sig .tc := ⟨.hbm, 37, rfl⟩
abbrev main_cst_5 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩

abbrev nD : Nat := 1
abbrev τ : Topo := Topo.v7x

variable {F : FTy → Type} [FloatOps F]

class Facts₀ : Prop where
  reducesTo_S2x16x2048x128_S2x16x2048_d3 : S2x16x2048x128.ReducesTo [3] S2x16x2048
  h_S_ : 0 < S_.numel
  bcast_S_S2x16x2048 : S_.BroadcastsInDim S2x16x2048 (![] : Fin 0 → Fin S2x16x2048.rank)
  bcast_S_S2x16x2048x2048 : S_.BroadcastsInDim S2x16x2048x2048 (![] : Fin 0 → Fin S2x16x2048x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  bcast_S2x16x2048_S2x16x1x2048_0_1_3 : S2x16x2048.BroadcastsInDim S2x16x1x2048 (![0, 1, 3] : Fin 3 → Fin S2x16x1x2048.rank)
  bcast_S2x16x1x2048_S2x16x2048x2048_0_1_2_3 : S2x16x1x2048.BroadcastsInDim S2x16x2048x2048 (![0, 1, 2, 3] : Fin 4 → Fin S2x16x2048x2048.rank)
  bcast_S_S2048x2048 : S_.BroadcastsInDim S2048x2048 (![] : Fin 0 → Fin S2048x2048.rank)
  bcast_S2048x2048_S2x16x2048x2048_2_3 : S2048x2048.BroadcastsInDim S2x16x2048x2048 (![2, 3] : Fin 2 → Fin S2x16x2048x2048.rank)
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.Around.lean ====
/-
  The host lines around the one kernel launch of the idealized kernel's @main, and the launch's two index tables.

  @main is: two constant tables (qi = [0,0,1,1,1,1] and ki = [0,1,0,1,2,3], the query block and the key block
  visited at each of the six steps of the triangular walk), three reshapes [2,16,2048,128] → [32,2048,128] of the
  arguments, the launch on the grid 32 × 6, and one reshape of the result back to [2,16,2048,128].  This module
  states what the launch finds in memory (V), that the tables it reads are those constants, that every block the
  tables select lies inside its array (so the launch is admissible, for every memory), and that the lines after the
  launch touch neither the arguments nor the tables.
-/
import proofs.«157718_j17832704213564_2_alg».proof.Proof.Gen.KernelIdeal.Launch
import proofs.«157718_j17832704213564_2_alg».proof.Proof.Gen.KernelIdeal.Skeleton
import Idealize.ShloMosaic.Lib.Pipeline.FrameBody
import Idealize.ShloMosaic.Lib.Pipeline.FrameSuffix
import Idealize.ShloMosaic.Lib.StableHlo.Run
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the launch finds -/

/-- Memory when the launch begins: the launch memory after the five host lines before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines, the launch, and then the one reshape after it. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-- The reshape after the launch reads the result array and writes the returned buffer: no table. -/
theorem tail_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl
  intro j; fin_cases j <;> simp only [StableHlo.reshape_bufs, Finset.mem_insert, Finset.mem_singleton, not_or] <;> and_intros <;> exact StableHlo.devRef_ne_of_ne (by decide)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes none of the four arrays the launch stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- A buffer none of the five lines before the launch writes is found as launched. -/
theorem V_of_unwritten (c : Dev nD) (b : Ref sig .tc) (hb : b ≠ main_c ∧ b ≠ main_c_0 ∧ b ≠ main_v0 ∧ b ≠ main_v1 ∧ b ≠ main_v2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2⟩))
theorem V_main_arg0 (c : Dev nD) : V m c main_arg0 = m ((c : Thread nD τ).loc main_arg0) := V_of_unwritten m c _ (by decide)
theorem V_main_arg1 (c : Dev nD) : V m c main_arg1 = m ((c : Thread nD τ).loc main_arg1) := V_of_unwritten m c _ (by decide)
theorem V_main_arg2 (c : Dev nD) : V m c main_arg2 = m ((c : Thread nD τ).loc main_arg2) := V_of_unwritten m c _ (by decide)

/-! ## The two tables -/

/-- The tables as the launch reads them (there is one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- The first table is the constant qi = [0,0,1,1,1,1]. -/
theorem tbl_qi : (tbl m 0 : S6.Idx → BitVec 32) = fun i => lit0 (S6.rowMajor i) := by
  show StableHlo.after hostOps0 (fun b => m ((0 : Dev nD), b)) (Proc.devRef .tc main_c) = _
  after_results; rfl
/-- The second table is the constant ki = [0,1,0,1,2,3]. -/
theorem tbl_ki : (tbl m 1 : S6.Idx → BitVec 32) = fun i => lit1 (S6.rowMajor i) := by
  show StableHlo.after hostOps0 (fun b => m ((0 : Dev nD), b)) (Proc.devRef .tc main_c_0) = _
  after_results; rfl

end Cert.KernelIdeal.Region

end
-- ==== Proof.Body.lean ====
/-
  The kernel body, run once on whole staging buffers, in its two cases.

  At a grid point the body reads the step's two table words (query block number w₀ and key block number w₁),
  and, with Q, K, V the three input blocks,
    · if w₁ = 0 (the first key block of a query block) stores zeros into the output buffer first;
    · then computes the logits L = 2s·Q Kᵀ − s·|Q|² − s·|K|² (k0_pay4), masks them causally against the global
      row w₀·1024 + r and column w₁·512 + c, exponentiates, multiplies by V, and ADDS the product to what
      the output buffer holds (k0_pay1).
  So the output buffer ends at  k0_pay1 … 0  in the first case and at  k0_pay1 … (what it held)  in the second;
  the inputs and the tables are handed back unchanged.
-/
import proofs.«157718_j17832704213564_2_alg».proof.Proof.Around
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The two tables as the body is handed them: whole buffers in scalar memory, held read-only (half a share). -/
abbrev tbM0 : Memref sig .tc .smem S6 .i32 := Memref.whole main_c
abbrev htbM0 : tbM0.IsWhole := Memref.isWhole_whole _
abbrev tbM1 : Memref sig .tc .smem S6 .i32 := Memref.whole main_c_0
abbrev htbM1 : tbM1.IsWhole := Memref.isWhole_whole _
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The word the body reads from a table at the point's step. -/
abbrev word (c : Dev nD) (M : Memref sig .tc .smem S6 .i32) (i : grid0.Coords) (xt : TbBuf (F := F) c M) : BitVec 32 :=
  M.view.readAt (Elt F) (Rect.unit (s := S6) (k0_off1 i) S1.size (k0_off1_inb i)).toLoadRect xt (Shape.Idx.first (numel1_S1.symm ▸ Nat.one_pos))

/-- The body's one branch: the key block number is 0, as the body spells the test. -/
abbrev resets (w : BitVec 32) : Prop := (Scalar.cmpi .ne (Scalar.extui (Scalar.cmpi .eq w 0#32)) 0#32) = 1#1

/-- What the output buffer holds after the body, from the three input blocks, the two words and what the buffer
    held when the accumulation began (zeros in the first case). -/
abbrev bodyOut (x0 : Vec F S1x1024x128 .f32) (x1 x2 : Vec F S1x512x128 .f32) (w0 w1 : BitVec 32) (acc : Vec F S1x1024x128 .f32) :
    Vec F S1x1024x128 .f32 :=
  k0_pay1 (k0_pay3 x2) (k0_pay4 x0 x1) (k0_pay5 (F := F) w0) (Scalar.muli w1 512#32) acc

theorem hz3 : (![0, 0, 0] : Fin 3 → Nat) = fun _ => 0 := funext fun a => by fin_cases a <;> rfl

set_option maxHeartbeats 1000000 in
/-- FIRST key block of a query block (the key block number is 0): the buffer, whatever it held, is zeroed and then accumulated into. -/
theorem body_first (c : Dev nD) (i : grid0.Coords) (arg4 : Memref sig .tc .vmem S1x1024x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x1024x128 .f32) (harg7 : arg7.IsWhole)
    (x0 : Vec F S1x1024x128 .f32) (x1 : Vec F S1x512x128 .f32) (x2 : Vec F S1x512x128 .f32) (acc : Vec F S1x1024x128 .f32) (xt0 : TbBuf (F := F) c tbM0) (xt1 : TbBuf (F := F) c tbM1)
    (hc0 : resets (word c tbM1 i xt1)) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ tbPt c tbM0 xt0 ∗ tbPt c tbM1 xt1
            ∗ (iprop(owns (c : Thread nD τ) arg4 fullShare x0 ∗ owns (c : Thread nD τ) arg5 fullShare x1 ∗ owns (c : Thread nD τ) arg6 fullShare x2
                ∗ owns (c : Thread nD τ) arg7 fullShare (bodyOut x0 x1 x2 (word c tbM0 i xt0) (word c tbM1 i xt1) (k0_pay2 (F := F)))
                ∗ tbPt c tbM0 xt0 ∗ tbPt c tbM1 xt1) -∗ K ⟨⟩))
          ⊢ wp frame (wpE (defs₀ (F := F)) Variants.none c none) E (cc0__rbf_causal_kernel i tbM0 htbM0 tbM1 htbM1 arg4 harg4 arg5 harg5 arg6 harg6 arg7 harg7) K := by
    intro E K
    simp only [cc0__rbf_causal_kernel_eq_skeleton]; unfold cc0__rbf_causal_kernel_skel
    simp only [k0_part1_eq_skeleton]
    unfold owns
    iintro ⟨⟨%f0, %hf0, H0⟩, ⟨%f1, %hf1, H1⟩, ⟨%f2, %hf2, H2⟩, ⟨%d3, %f3, -, H3⟩, HT0, HT1, Hk⟩
    obtain rfl := harg4.eq_unread hf0; obtain rfl := harg5.eq_unread hf1; obtain rfl := harg6.eq_unread hf2
    sl_exec (disch := first | sl_exact hc0)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; swap; · iexact H3
      ipureintro
      rw [View.read_writes_eq_canon _ _ _ (fun y => ⟨_, List.mem_cons_self .., View.mem_set_unit_zero hz3 inb_S1x1024x128_S1x1024x128_0_0_0 y⟩),
        View.canon_cons_unit_zero hz3]
      sl_unfold_run_names
      have e0 : View.readAt (Elt F) arg4.view (Rect.unit (s := S1x1024x128) ![0, 0, 0] S1x1024x128.size inb_S1x1024x128_S1x1024x128_0_0_0).toLoadRect (harg4.unread x0) = x0 := by
        rw [View.readAt_eq_ld, harg4.read_unread, View.ld_unit_zero (S := S1x1024x128) hz3]
      have e1 : View.readAt (Elt F) arg5.view (Rect.unit (s := S1x512x128) ![0, 0, 0] S1x512x128.size inb_S1x512x128_S1x512x128_0_0_0).toLoadRect (harg5.unread x1) = x1 := by
        rw [View.readAt_eq_ld, harg5.read_unread, View.ld_unit_zero (S := S1x512x128) hz3]
      have e2 : View.readAt (Elt F) arg6.view (Rect.unit (s := S1x512x128) ![0, 0, 0] S1x512x128.size inb_S1x512x128_S1x512x128_0_0_0).toLoadRect (harg6.unread x2) = x2 := by
        rw [View.readAt_eq_ld, harg6.read_unread, View.ld_unit_zero (S := S1x512x128) hz3]
      have e3 : arg7.view.readCov [(⟨Rect.unit (s := S1x1024x128) ![0, 0, 0] S1x1024x128.size inb_S1x1024x128_S1x1024x128_0_0_0, k0_pay2 (F := F)⟩ : View.Piece (Elt F) S1x1024x128 .f32)]
          (Rect.unit (s := S1x1024x128) ![0, 0, 0] S1x1024x128.size inb_S1x1024x128_S1x1024x128_0_0_0).toLoadRect = k0_pay2 (F := F) :=
        View.readCov_unit_zero arg7.view hz3 inb_S1x1024x128_S1x1024x128_0_0_0 _
      rw [e0, e1, e2]
      exact congrArg (k0_pay1 (k0_pay3 x2) (k0_pay4 x0 x1) (k0_pay5 (F := F) (word c tbM0 i xt0)) (Scalar.muli (word c tbM1 i xt1) 512#32)) e3
    isplitl [HT0]; · iexact HT0
    iexact HT1

set_option maxHeartbeats 1000000 in
/-- A LATER key block (the key block number is not 0): the product is added to what the buffer holds. -/
theorem body_next (c : Dev nD) (i : grid0.Coords) (arg4 : Memref sig .tc .vmem S1x1024x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x1024x128 .f32) (harg7 : arg7.IsWhole)
    (x0 : Vec F S1x1024x128 .f32) (x1 : Vec F S1x512x128 .f32) (x2 : Vec F S1x512x128 .f32) (acc : Vec F S1x1024x128 .f32) (xt0 : TbBuf (F := F) c tbM0) (xt1 : TbBuf (F := F) c tbM1)
    (hc0 : ¬resets (word c tbM1 i xt1)) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare acc ∗ tbPt c tbM0 xt0 ∗ tbPt c tbM1 xt1
            ∗ (iprop(owns (c : Thread nD τ) arg4 fullShare x0 ∗ owns (c : Thread nD τ) arg5 fullShare x1 ∗ owns (c : Thread nD τ) arg6 fullShare x2
                ∗ owns (c : Thread nD τ) arg7 fullShare (bodyOut x0 x1 x2 (word c tbM0 i xt0) (word c tbM1 i xt1) acc)
                ∗ tbPt c tbM0 xt0 ∗ tbPt c tbM1 xt1) -∗ K ⟨⟩))
          ⊢ wp frame (wpE (defs₀ (F := F)) Variants.none c none) E (cc0__rbf_causal_kernel i tbM0 htbM0 tbM1 htbM1 arg4 harg4 arg5 harg5 arg6 harg6 arg7 harg7) K := by
    intro E K
    simp only [cc0__rbf_causal_kernel_eq_skeleton]; unfold cc0__rbf_causal_kernel_skel
    simp only [k0_part1_eq_skeleton]
    unfold owns
    iintro ⟨⟨%f0, %hf0, H0⟩, ⟨%f1, %hf1, H1⟩, ⟨%f2, %hf2, H2⟩, ⟨%f3, %hf3, H3⟩, HT0, HT1, Hk⟩
    obtain rfl := harg4.eq_unread hf0; obtain rfl := harg5.eq_unread hf1; obtain rfl := harg6.eq_unread hf2; obtain rfl := harg7.eq_unread hf3
    sl_exec (disch := first | sl_exact hc0)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; swap; · iexact H3
      ipureintro
      rw [View.read_writes_eq_canon _ _ _ (fun y => ⟨_, List.mem_cons_self .., View.mem_set_unit_zero hz3 inb_S1x1024x128_S1x1024x128_0_0_0 y⟩),
        View.canon_cons_unit_zero hz3]
      sl_unfold_run_names
      have e0 : View.readAt (Elt F) arg4.view (Rect.unit (s := S1x1024x128) ![0, 0, 0] S1x1024x128.size inb_S1x1024x128_S1x1024x128_0_0_0).toLoadRect (harg4.unread x0) = x0 := by
        rw [View.readAt_eq_ld, harg4.read_unread, View.ld_unit_zero (S := S1x1024x128) hz3]
      have e1 : View.readAt (Elt F) arg5.view (Rect.unit (s := S1x512x128) ![0, 0, 0] S1x512x128.size inb_S1x512x128_S1x512x128_0_0_0).toLoadRect (harg5.unread x1) = x1 := by
        rw [View.readAt_eq_ld, harg5.read_unread, View.ld_unit_zero (S := S1x512x128) hz3]
      have e2 : View.readAt (Elt F) arg6.view (Rect.unit (s := S1x512x128) ![0, 0, 0] S1x512x128.size inb_S1x512x128_S1x512x128_0_0_0).toLoadRect (harg6.unread x2) = x2 := by
        rw [View.readAt_eq_ld, harg6.read_unread, View.ld_unit_zero (S := S1x512x128) hz3]
      have e3 : View.readAt (Elt F) arg7.view (Rect.unit (s := S1x1024x128) ![0, 0, 0] S1x1024x128.size inb_S1x1024x128_S1x1024x128_0_0_0).toLoadRect (harg7.unread acc) = acc := by
        rw [View.readAt_eq_ld, harg7.read_unread, View.ld_unit_zero (S := S1x1024x128) hz3]
      rw [e0, e1, e2]
      exact congrArg (k0_pay1 (k0_pay3 x2) (k0_pay4 x0 x1) (k0_pay5 (F := F) (word c tbM0 i xt0)) (Scalar.muli (word c tbM1 i xt1) 512#32)) e3
    isplitl [HT0]; · iexact HT0
    iexact HT1

end Cert.KernelIdeal.Region

end
-- ==== Proof.Tables.lean ====
/-
  The two index tables of the launch, read: at step s of the six-step walk the query block is qi s and the key block
  is ki s, with qi = [0,0,1,1,1,1] and ki = [0,1,0,1,2,3].  Every block they select lies inside its array (query
  blocks of 1024 rows: qi s ≤ 1; key blocks of 512 rows: ki s ≤ 3; 2048 rows in all), so the launch is admissible
  whatever the memory holds.
-/
import proofs.«157718_j17832704213564_2_alg».proof.Proof.Around

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.Sem

variable {F : FTy → Type} [FloatOps F] [Named F]
variable (m : (ℓ : Loc nD τ sig) → Buf (Elt F) ℓ)

/-- The step as a table offset: a coordinate below 6 survives the round trip through a 32-bit word. -/
theorem off_val (i : grid0.Coords) : k0_off1 i 0 = (i 1).val := by
  have h6 : (i 1).val < 6 := (i 1).isLt
  show (Scalar.indexCast (BitVec.ofNat 32 (i 1).val)).toNat = (i 1).val
  simp only [Scalar.indexCast]
  rw [BitVec.toNat_ofNat]; omega

/-- The table cell read at a grid point is cell number "step". -/
theorem cell_val (i : grid0.Coords) :
    (S6.rowMajor ((Rect.unit (s := S6) (k0_off1 i) S1.size (k0_off1_inb i)).emb (Shape.Idx.first (numel1_S1.symm ▸ Nat.one_pos)))).val = (i 1).val := by
  rw [Shape.rowMajor_val_one, Rect.emb_apply]
  show k0_off1 i 0 + 1 * 0 = _
  rw [off_val]; omega

/-- The word of the first table read at a grid point: qi (step). -/
theorem qi_word (i : grid0.Coords) :
    (tbl m).at 0 (Rect.unit (s := S6) (k0_off1 i) S1.size (k0_off1_inb i)) numel1_S1 = lit0 ⟨(i 1).val, (i 1).isLt⟩ := by
  show tbl m 0 _ = _
  rw [tbl_qi]
  exact congrArg lit0 (Fin.ext (cell_val i))

/-- The word of the second table read at a grid point: ki (step). -/
theorem ki_word (i : grid0.Coords) :
    (tbl m).at 1 (Rect.unit (s := S6) (k0_off1 i) S1.size (k0_off1_inb i)) numel1_S1 = lit1 ⟨(i 1).val, (i 1).isLt⟩ := by
  show tbl m 1 _ = _
  rw [tbl_ki]
  exact congrArg lit1 (Fin.ext (cell_val i))

theorem qi_le : ∀ s : Fin 6, (lit0 s).toNat ≤ 1 := by decide
theorem ki_le : ∀ s : Fin 6, (lit1 s).toNat ≤ 3 := by decide

/-- The side condition of the launch at the tables the launch reads. -/
abbrev Ok : Prop := ok0 (F := F) (tbl m)

/-- A batch-head coordinate below 32 survives the round trip through a 32-bit word. -/
theorem bh_val (i : grid0.Coords) : (BitVec.ofNat 32 (i 0).val).toNat = (i 0).val := by
  have h : (i 0).val < 32 := (i 0).isLt
  rw [BitVec.toNat_ofNat]; omega

/-- Every selected block lies inside its array: the launch is admissible. -/
theorem ok : Ok m := by
  refine ⟨fun i => ⟨fun a => ?_, .inl rfl⟩, fun i => ⟨fun a => ?_, .inl rfl⟩, fun i => ⟨fun a => ?_, .inl rfl⟩, fun i => ⟨fun a => ?_, .inl rfl⟩⟩
  · match a with
    | ⟨0, _⟩ => show ((BitVec.ofNat 32 (i 0).val).toNat + 1) * 1 ≤ 32; rw [bh_val]; have h : (i 0).val < 32 := (i 0).isLt; omega
    | ⟨1, _⟩ =>
      show (((tbl m).at 0 (Rect.unit (s := S6) (k0_off1 i) S1.size (k0_off1_inb i)) numel1_S1).toNat + 1) * 1024 ≤ 2048
      rw [qi_word]; have := qi_le ⟨(i 1).val, (i 1).isLt⟩; omega
    | ⟨2, _⟩ => show ((0#32).toNat + 1) * 128 ≤ 128; decide
  · match a with
    | ⟨0, _⟩ => show ((BitVec.ofNat 32 (i 0).val).toNat + 1) * 1 ≤ 32; rw [bh_val]; have h : (i 0).val < 32 := (i 0).isLt; omega
    | ⟨1, _⟩ =>
      show (((tbl m).at 1 (Rect.unit (s := S6) (k0_off1 i) S1.size (k0_off1_inb i)) numel1_S1).toNat + 1) * 512 ≤ 2048
      rw [ki_word]; have := ki_le ⟨(i 1).val, (i 1).isLt⟩; omega
    | ⟨2, _⟩ => show ((0#32).toNat + 1) * 128 ≤ 128; decide
  · match a with
    | ⟨0, _⟩ => show ((BitVec.ofNat 32 (i 0).val).toNat + 1) * 1 ≤ 32; rw [bh_val]; have h : (i 0).val < 32 := (i 0).isLt; omega
    | ⟨1, _⟩ =>
      show (((tbl m).at 1 (Rect.unit (s := S6) (k0_off1 i) S1.size (k0_off1_inb i)) numel1_S1).toNat + 1) * 512 ≤ 2048
      rw [ki_word]; have := ki_le ⟨(i 1).val, (i 1).isLt⟩; omega
    | ⟨2, _⟩ => show ((0#32).toNat + 1) * 128 ≤ 128; decide
  · match a with
    | ⟨0, _⟩ => show ((BitVec.ofNat 32 (i 0).val).toNat + 1) * 1 ≤ 32; rw [bh_val]; have h : (i 0).val < 32 := (i 0).isLt; omega
    | ⟨1, _⟩ =>
      show (((tbl m).at 0 (Rect.unit (s := S6) (k0_off1 i) S1.size (k0_off1_inb i)) numel1_S1).toNat + 1) * 1024 ≤ 2048
      rw [qi_word]; have := qi_le ⟨(i 1).val, (i 1).isLt⟩; omega
    | ⟨2, _⟩ => show ((0#32).toNat + 1) * 128 ≤ 128; decide

/-- The tables as admissible contents, and the launch's configuration at them. -/
abbrev adm : (pcfg0 (F := F)).Adm := ⟨tbl m, ok m⟩
abbrev cfgM : Pipeline.Cfg sig Λ₀ := cfg0 (adm m)

end Cert.KernelIdeal.Region

end
-- ==== Proof.Schedule.lean ====
/-
  The walk of the grid.  Point t of the 32 × 6 grid is batch-head t / 6 at step t % 6 of the triangular walk
  (query block qi, key block ki) = (0,0) (0,1) (1,0) (1,1) (1,2) (1,3).  The query window and the output window
  sit at block (t / 6, qi, 0) of their arrays, the key and value windows at block (t / 6, ki, 0).  So the output
  block changes after steps 1 and 5, which is where it is written back, and the accumulation restarts exactly at
  steps 0 and 2, where ki = 0.
-/
import proofs.«157718_j17832704213564_2_alg».proof.Proof.Tables

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.Sem
open Idealize.ShloMosaic.Pipeline (Window)

variable {F : FTy → Type} [FloatOps F] [Named F]
variable (m : (ℓ : Loc nD τ sig) → Buf (Elt F) ℓ)

/-- The block index of the query and output windows at a grid point, in closed form. -/
def ixQ (i : grid0.Coords) : Fin 3 → Nat := ![(i 0).val, (lit0 ⟨(i 1).val, (i 1).isLt⟩).toNat, 0]
/-- The block index of the key and value windows at a grid point, in closed form. -/
def ixK (i : grid0.Coords) : Fin 3 → Nat := ![(i 0).val, (lit1 ⟨(i 1).val, (i 1).isLt⟩).toNat, 0]

theorem ix_q (i : grid0.Coords) : cc0_transform_0 k0_off1_inb numel1_S1 (tbl m) i = ixQ i := funext fun a => by
  match a with
  | ⟨0, _⟩ => exact bh_val i
  | ⟨1, _⟩ => show ((tbl m).at 0 (Rect.unit (s := S6) (k0_off1 i) S1.size (k0_off1_inb i)) numel1_S1).toNat = _; rw [qi_word]; rfl
  | ⟨2, _⟩ => rfl
theorem ix_k (i : grid0.Coords) : cc0_transform_1 k0_off1_inb numel1_S1 (tbl m) i = ixK i := funext fun a => by
  match a with
  | ⟨0, _⟩ => exact bh_val i
  | ⟨1, _⟩ => show ((tbl m).at 1 (Rect.unit (s := S6) (k0_off1 i) S1.size (k0_off1_inb i)) numel1_S1).toNat = _; rw [ki_word]; rfl
  | ⟨2, _⟩ => rfl
theorem ix_v (i : grid0.Coords) : cc0_transform_2 k0_off1_inb numel1_S1 (tbl m) i = ixK i := funext fun a => by
  match a with
  | ⟨0, _⟩ => exact bh_val i
  | ⟨1, _⟩ => show ((tbl m).at 1 (Rect.unit (s := S6) (k0_off1 i) S1.size (k0_off1_inb i)) numel1_S1).toNat = _; rw [ki_word]; rfl
  | ⟨2, _⟩ => rfl
theorem ix_o (i : grid0.Coords) : cc0_transform_3 k0_off1_inb numel1_S1 (tbl m) i = ixQ i := funext fun a => by
  match a with
  | ⟨0, _⟩ => exact bh_val i
  | ⟨1, _⟩ => show ((tbl m).at 0 (Rect.unit (s := S6) (k0_off1 i) S1.size (k0_off1_inb i)) numel1_S1).toNat = _; rw [qi_word]; rfl
  | ⟨2, _⟩ => rfl

/-- A point's coordinates: batch-head t / 6, step t % 6. -/
theorem coords_closed : ∀ t : Fin grid0.N, (grid0.coords t 0).val = t.val / 6 ∧ (grid0.coords t 1).val = t.val % 6 := by
  decide +kernel

/-- The output block moves on after steps 1 and 5 (the last step of each query block), and only there. -/
theorem flush_closed : ∀ t : Fin grid0.N, Window.flushOf grid0 true ixQ t = decide (t.val % 6 = 1 ∨ t.val % 6 = 5) := by
  decide +kernel

/-- The output window is written back exactly after steps 1 and 5. -/
theorem flush_out (t : Fin (cfgM m).N) : ((cfgM m).win 3).flush t = decide (t.val % 6 = 1 ∨ t.val % 6 = 5) := by
  rw [Window.flush_eq_flushOf]
  show Window.flushOf grid0 true (cc0_transform_3 k0_off1_inb numel1_S1 (tbl m)) t = _
  rw [show cc0_transform_3 k0_off1_inb numel1_S1 (tbl m) = ixQ from funext (ix_o m)]
  exact flush_closed t

end Cert.KernelIdeal.Region

end
-- ==== Proof.Data.lean ====
/-
  What the launch's staging buffers hold, point by point.

  The three input windows hold their blocks.  The output window's buffer is an accumulator: at a point whose key
  block number is 0 it restarts from zeros, at any other point it continues from what the point before left; after
  the last key block of a query block it is written back.  \`accAt\` is that recursion; the body's two cases (Body)
  are exactly its two branches, and between two points of one query block nothing touches the buffer.
-/
import proofs.«157718_j17832704213564_2_alg».proof.Proof.Body
import proofs.«157718_j17832704213564_2_alg».proof.Proof.Schedule

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Blocks and words at a point -/

/-- Window \`w\`'s block at point \`t\`, read off its array as the launch finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- The query block number and the key block number the body reads at point \`t\`. -/
abbrev wq (c : Dev nD) (t : Fin (cfgM m).N) : BitVec 32 := word c tbM0 (grid0.coords t) (tbl m 0)
abbrev wk (c : Dev nD) (t : Fin (cfgM m).N) : BitVec 32 := word c tbM1 (grid0.coords t) (tbl m 1)

/-- The word read from the second table is ki (step). -/
theorem wk_eq (c : Dev nD) (t : Fin (cfgM m).N) : wk m c t = lit1 ⟨(grid0.coords t 1).val, (grid0.coords t 1).isLt⟩ :=
  ki_word m (grid0.coords t)
/-- The word read from the first table is qi (step). -/
theorem wq_eq (c : Dev nD) (t : Fin (cfgM m).N) : wq m c t = lit0 ⟨(grid0.coords t 1).val, (grid0.coords t 1).isLt⟩ :=
  qi_word m (grid0.coords t)

/-- ki = 0 exactly at steps 0 and 2. -/
theorem resets_closed : ∀ s : Fin 6, resets (lit1 s) ↔ (s.val = 0 ∨ s.val = 2) := by decide

/-- The accumulation restarts at point \`t\` exactly when its step is 0 or 2. -/
theorem resets_iff (c : Dev nD) (t : Fin (cfgM m).N) : resets (wk m c t) ↔ (t.val % 6 = 0 ∨ t.val % 6 = 2) := by
  rw [wk_eq, resets_closed]
  have h := (coords_closed t).2
  show ((grid0.coords t 1).val = 0 ∨ (grid0.coords t 1).val = 2) ↔ _
  rw [h]

/-! ## The accumulator -/

/-- What the output buffer holds after point \`n\`: the body's result from the point's blocks and words, over zeros
    where the accumulation restarts and over what point \`n - 1\` left elsewhere. -/
def accAt (c : Dev nD) : (n : Nat) → (h : n < (cfgM m).N) → Vec F S1x1024x128 .f32
  | 0, h => bodyOut (iblk m c 0 ⟨0, h⟩) (iblk m c 1 ⟨0, h⟩) (iblk m c 2 ⟨0, h⟩) (wq m c ⟨0, h⟩) (wk m c ⟨0, h⟩) (k0_pay2 (F := F))
  | n + 1, h => bodyOut (iblk m c 0 ⟨n + 1, h⟩) (iblk m c 1 ⟨n + 1, h⟩) (iblk m c 2 ⟨n + 1, h⟩) (wq m c ⟨n + 1, h⟩) (wk m c ⟨n + 1, h⟩)
      (if resets (wk m c ⟨n + 1, h⟩) then k0_pay2 (F := F) else accAt c n (Nat.lt_of_succ_lt h))

theorem accAt_first (c : Dev nD) (t : Fin (cfgM m).N) (h : resets (wk m c t)) :
    accAt m c t.val t.isLt = bodyOut (iblk m c 0 t) (iblk m c 1 t) (iblk m c 2 t) (wq m c t) (wk m c t) (k0_pay2 (F := F)) := by
  obtain ⟨n, hn⟩ := t
  cases n with
  | zero => rfl
  | succ n => show bodyOut _ _ _ _ _ (if _ then _ else _) = _; rw [if_pos h]

theorem accAt_next (c : Dev nD) (t : Fin (cfgM m).N) (h : ¬resets (wk m c t)) (ht : t.val ≠ 0) :
    accAt m c t.val t.isLt = bodyOut (iblk m c 0 t) (iblk m c 1 t) (iblk m c 2 t) (wq m c t) (wk m c t)
      (accAt m c (t.val - 1) (Nat.lt_of_le_of_lt (Nat.sub_le _ _) t.isLt)) := by
  obtain ⟨n, hn⟩ := t
  cases n with
  | zero => exact absurd rfl ht
  | succ n => show bodyOut _ _ _ _ _ (if _ then _ else _) = _; rw [if_neg h]; rfl

/-! ## The launch's proof data -/

/-- On core \`c\`: the arrays as the launch finds them; after the body at point \`t\` each input's buffer at its block and
    the output's at the accumulator; the tables held read-only throughout. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = accAt m c t.val t.isLt := by dsimp only [dats]; try rfl

/-- An input's buffer holds its block at every point, fetched there or kept from the point before (the block index
    has not moved, and the body only reads it). -/
theorem before_0 (c : Dev nD) (t : Fin (cfgM m).N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin (cfgM m).N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-- Where the accumulation continues, the output buffer holds what the point before left: it was not written back
    in between (write-backs follow steps 1 and 5, continuations are steps 1, 3, 4, 5). -/
theorem before_3 (c : Dev nD) (t : Fin (cfgM m).N) (h : ¬resets (wk m c t)) (d) :
    t.val ≠ 0 ∧ (dats m 0 c).before 3 t d = accAt m c (t.val - 1) (Nat.lt_of_le_of_lt (Nat.sub_le _ _) t.isLt) := by
  have hs : ¬(t.val % 6 = 0 ∨ t.val % 6 = 2) := fun e => h ((resets_iff m c t).mpr e)
  have ht : t.val ≠ 0 := fun e => hs (.inl (by rw [e]))
  refine ⟨ht, ?_⟩
  have hfl : ((cfgM m).win 3).flush ⟨t.val - 1, Nat.lt_of_le_of_lt (Nat.sub_le _ _) t.isLt⟩ = false := by
    rw [flush_out]
    show decide ((t.val - 1) % 6 = 1 ∨ (t.val - 1) % 6 = 5) = false
    rw [decide_eq_false_iff_not]
    omega
  rw [(dats m 0 c).before_out_kept 3 rfl t ht hfl (fun _ => rfl) (fun _ _ => rfl) d]
  exact after_3 m c _

end Cert.KernelIdeal.Region

end
-- ==== Proof.Blocks.lean ====
/-
  The blocks the body sees, as entries of the three [32, 2048, 128] arrays the launch finds.

  At point t (batch-head b = t / 6, step s = t % 6) row r of the query block is row qi s · 1024 + r of batch-head b,
  row c of the key and value blocks is row ki s · 512 + c: a block's coordinate is its block index times the block
  size plus the coordinate inside the block.
-/
import proofs.«157718_j17832704213564_2_alg».proof.Proof.Data
import Idealize.ShloMosaic.Lib.ValueIdx

set_option maxRecDepth 16384

noncomputable section

namespace Cert.KernelIdeal.Region

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Window)

variable {F : FTy → Type} [FloatOps F] [Named F]
variable (m : (ℓ : Loc nD τ sig) → Buf (Elt F) ℓ)

/-- The query block number and the key block number at a point, as numbers. -/
def qiN (t : Fin grid0.N) : Nat := (lit0 ⟨(grid0.coords t 1).val, (grid0.coords t 1).isLt⟩).toNat
def kiN (t : Fin grid0.N) : Nat := (lit1 ⟨(grid0.coords t 1).val, (grid0.coords t 1).isLt⟩).toNat
/-- The batch-head of a point. -/
def bhN (t : Fin grid0.N) : Nat := (grid0.coords t 0).val

theorem index_q (t : Fin (cfgM m).N) : ((cfgM m).win 0).index t = ![bhN t, qiN t, 0] := ix_q m (grid0.coords t)
theorem index_k (t : Fin (cfgM m).N) : ((cfgM m).win 1).index t = ![bhN t, kiN t, 0] := ix_k m (grid0.coords t)
theorem index_v (t : Fin (cfgM m).N) : ((cfgM m).win 2).index t = ![bhN t, kiN t, 0] := ix_v m (grid0.coords t)
theorem index_o (t : Fin (cfgM m).N) : ((cfgM m).win 3).index t = ![bhN t, qiN t, 0] := ix_o m (grid0.coords t)

set_option maxHeartbeats 1600000 in
/-- An entry of the query block is the entry of the query array in row qi · 1024 + r of the point's batch-head. -/
theorem iblk_q_apply (c : Dev nD) (t : Fin (cfgM m).N) (r : Fin 1024) (e : Fin 128) (i : S32x2048x128.Idx)
    (h0 : (i 0).val = bhN t) (h1 : (i 1).val = qiN t * 1024 + r.val) (h2 : (i 2).val = e.val) :
    (iblk m c 0 t : S1x1024x128.Idx → Elt F .f32) (ix3 0 r e) = (V m c main_v0 : S32x2048x128.Idx → Elt F .f32) i := by
  show (V m c main_v0 : S32x2048x128.Idx → Elt F .f32) ((((cfgM m).win 0).blk t).view.emb (ix3 0 r e)) = _
  have hx := index_q m t
  have e0 : ((((cfgM m).win 0).blk t).view.emb (ix3 0 r e) (0 : Fin 3)).val = ((cfgM m).win 0).index t (0 : Fin 3) * 1 + 0 :=
    Window.rect_emb_val ((cfgM m).win 0) t (ix3 0 r e) (0 : Fin 3)
  have e1 : ((((cfgM m).win 0).blk t).view.emb (ix3 0 r e) (1 : Fin 3)).val = ((cfgM m).win 0).index t (1 : Fin 3) * 1024 + r.val :=
    Window.rect_emb_val ((cfgM m).win 0) t (ix3 0 r e) (1 : Fin 3)
  have e2 : ((((cfgM m).win 0).blk t).view.emb (ix3 0 r e) (2 : Fin 3)).val = ((cfgM m).win 0).index t (2 : Fin 3) * 128 + e.val :=
    Window.rect_emb_val ((cfgM m).win 0) t (ix3 0 r e) (2 : Fin 3)
  rw [hx] at e0 e1 e2
  refine congrArg (V m c main_v0 : S32x2048x128.Idx → Elt F .f32) ?_
  rw [eq_ix3 i]
  refine (eq_ix3 _).trans ?_
  have c0 : (((cfgM m).win 0).blk t).view.emb (ix3 0 r e) (0 : Fin 3) = i 0 := Fin.ext (by rw [e0, h0]; show bhN t * 1 + 0 = bhN t; omega)
  have c1 : (((cfgM m).win 0).blk t).view.emb (ix3 0 r e) (1 : Fin 3) = i 1 := Fin.ext (by rw [e1, h1]; rfl)
  have c2 : (((cfgM m).win 0).blk t).view.emb (ix3 0 r e) (2 : Fin 3) = i 2 := Fin.ext (by rw [e2, h2]; show 0 * 128 + e.val = e.val; omega)
  rw [c0, c1, c2]

set_option maxHeartbeats 1600000 in
/-- An entry of the key block is the entry of the key array in row ki · 512 + r of the point's batch-head. -/
theorem iblk_k_apply (c : Dev nD) (t : Fin (cfgM m).N) (r : Fin 512) (e : Fin 128) (i : S32x2048x128.Idx)
    (h0 : (i 0).val = bhN t) (h1 : (i 1).val = kiN t * 512 + r.val) (h2 : (i 2).val = e.val) :
    (iblk m c 1 t : S1x512x128.Idx → Elt F .f32) (ix3 0 r e) = (V m c main_v1 : S32x2048x128.Idx → Elt F .f32) i := by
  show (V m c main_v1 : S32x2048x128.Idx → Elt F .f32) ((((cfgM m).win 1).blk t).view.emb (ix3 0 r e)) = _
  have hx := index_k m t
  have e0 : ((((cfgM m).win 1).blk t).view.emb (ix3 0 r e) (0 : Fin 3)).val = ((cfgM m).win 1).index t (0 : Fin 3) * 1 + 0 :=
    Window.rect_emb_val ((cfgM m).win 1) t (ix3 0 r e) (0 : Fin 3)
  have e1 : ((((cfgM m).win 1).blk t).view.emb (ix3 0 r e) (1 : Fin 3)).val = ((cfgM m).win 1).index t (1 : Fin 3) * 512 + r.val :=
    Window.rect_emb_val ((cfgM m).win 1) t (ix3 0 r e) (1 : Fin 3)
  have e2 : ((((cfgM m).win 1).blk t).view.emb (ix3 0 r e) (2 : Fin 3)).val = ((cfgM m).win 1).index t (2 : Fin 3) * 128 + e.val :=
    Window.rect_emb_val ((cfgM m).win 1) t (ix3 0 r e) (2 : Fin 3)
  rw [hx] at e0 e1 e2
  refine congrArg (V m c main_v1 : S32x2048x128.Idx → Elt F .f32) ?_
  rw [eq_ix3 i]
  refine (eq_ix3 _).trans ?_
  have c0 : (((cfgM m).win 1).blk t).view.emb (ix3 0 r e) (0 : Fin 3) = i 0 := Fin.ext (by rw [e0, h0]; show bhN t * 1 + 0 = bhN t; omega)
  have c1 : (((cfgM m).win 1).blk t).view.emb (ix3 0 r e) (1 : Fin 3) = i 1 := Fin.ext (by rw [e1, h1]; rfl)
  have c2 : (((cfgM m).win 1).blk t).view.emb (ix3 0 r e) (2 : Fin 3) = i 2 := Fin.ext (by rw [e2, h2]; show 0 * 128 + e.val = e.val; omega)
  rw [c0, c1, c2]

set_option maxHeartbeats 1600000 in
/-- An entry of the value block is the entry of the value array in row ki · 512 + r of the point's batch-head. -/
theorem iblk_v_apply (c : Dev nD) (t : Fin (cfgM m).N) (r : Fin 512) (e : Fin 128) (i : S32x2048x128.Idx)
    (h0 : (i 0).val = bhN t) (h1 : (i 1).val = kiN t * 512 + r.val) (h2 : (i 2).val = e.val) :
    (iblk m c 2 t : S1x512x128.Idx → Elt F .f32) (ix3 0 r e) = (V m c main_v2 : S32x2048x128.Idx → Elt F .f32) i := by
  show (V m c main_v2 : S32x2048x128.Idx → Elt F .f32) ((((cfgM m).win 2).blk t).view.emb (ix3 0 r e)) = _
  have hx := index_v m t
  have e0 : ((((cfgM m).win 2).blk t).view.emb (ix3 0 r e) (0 : Fin 3)).val = ((cfgM m).win 2).index t (0 : Fin 3) * 1 + 0 :=
    Window.rect_emb_val ((cfgM m).win 2) t (ix3 0 r e) (0 : Fin 3)
  have e1 : ((((cfgM m).win 2).blk t).view.emb (ix3 0 r e) (1 : Fin 3)).val = ((cfgM m).win 2).index t (1 : Fin 3) * 512 + r.val :=
    Window.rect_emb_val ((cfgM m).win 2) t (ix3 0 r e) (1 : Fin 3)
  have e2 : ((((cfgM m).win 2).blk t).view.emb (ix3 0 r e) (2 : Fin 3)).val = ((cfgM m).win 2).index t (2 : Fin 3) * 128 + e.val :=
    Window.rect_emb_val ((cfgM m).win 2) t (ix3 0 r e) (2 : Fin 3)
  rw [hx] at e0 e1 e2
  refine congrArg (V m c main_v2 : S32x2048x128.Idx → Elt F .f32) ?_
  rw [eq_ix3 i]
  refine (eq_ix3 _).trans ?_
  have c0 : (((cfgM m).win 2).blk t).view.emb (ix3 0 r e) (0 : Fin 3) = i 0 := Fin.ext (by rw [e0, h0]; show bhN t * 1 + 0 = bhN t; omega)
  have c1 : (((cfgM m).win 2).blk t).view.emb (ix3 0 r e) (1 : Fin 3) = i 1 := Fin.ext (by rw [e1, h1]; rfl)
  have c2 : (((cfgM m).win 2).blk t).view.emb (ix3 0 r e) (2 : Fin 3) = i 2 := Fin.ext (by rw [e2, h2]; show 0 * 128 + e.val = e.val; omega)
  rw [c0, c1, c2]

set_option maxHeartbeats 1600000 in
/-- Entry (r, e) of the output block at a point sits in row qi · 1024 + r of the point's batch-head in the result array. -/
theorem oblk_emb (t : Fin (cfgM m).N) (r : Fin 1024) (e : Fin 128) (i : S32x2048x128.Idx)
    (h0 : (i 0).val = bhN t) (h1 : (i 1).val = qiN t * 1024 + r.val) (h2 : (i 2).val = e.val) :
    (((cfgM m).win 3).blk t).view.emb (ix3 0 r e) = i := by
  have hx := index_o m t
  have e0 : ((((cfgM m).win 3).blk t).view.emb (ix3 0 r e) (0 : Fin 3)).val = ((cfgM m).win 3).index t (0 : Fin 3) * 1 + 0 :=
    Window.rect_emb_val ((cfgM m).win 3) t (ix3 0 r e) (0 : Fin 3)
  have e1 : ((((cfgM m).win 3).blk t).view.emb (ix3 0 r e) (1 : Fin 3)).val = ((cfgM m).win 3).index t (1 : Fin 3) * 1024 + r.val :=
    Window.rect_emb_val ((cfgM m).win 3) t (ix3 0 r e) (1 : Fin 3)
  have e2 : ((((cfgM m).win 3).blk t).view.emb (ix3 0 r e) (2 : Fin 3)).val = ((cfgM m).win 3).index t (2 : Fin 3) * 128 + e.val :=
    Window.rect_emb_val ((cfgM m).win 3) t (ix3 0 r e) (2 : Fin 3)
  rw [hx] at e0 e1 e2
  rw [eq_ix3 i]
  refine (eq_ix3 _).trans ?_
  have c0 : (((cfgM m).win 3).blk t).view.emb (ix3 0 r e) (0 : Fin 3) = i 0 := Fin.ext (by rw [e0, h0]; show bhN t * 1 + 0 = bhN t; omega)
  have c1 : (((cfgM m).win 3).blk t).view.emb (ix3 0 r e) (1 : Fin 3) = i 1 := Fin.ext (by rw [e1, h1]; rfl)
  have c2 : (((cfgM m).win 3).blk t).view.emb (ix3 0 r e) (2 : Fin 3) = i 2 := Fin.ext (by rw [e2, h2]; show 0 * 128 + e.val = e.val; omega)
  rw [c0, c1, c2]

/-! ## The walk, decided over the 192 points -/

theorem qi_lt (t : Fin grid0.N) : qiN t < 2 := by have := qi_le ⟨(grid0.coords t 1).val, (grid0.coords t 1).isLt⟩; unfold qiN; omega
theorem ki_lt (t : Fin grid0.N) : kiN t < 4 := by have := ki_le ⟨(grid0.coords t 1).val, (grid0.coords t 1).isLt⟩; unfold kiN; omega
theorem bh_lt (t : Fin grid0.N) : bhN t < 32 := (grid0.coords t 0).isLt

/-- Where the accumulation restarts the key block number is 0. -/
theorem ki_of_restart : ∀ t : Fin grid0.N, (t.val % 6 = 0 ∨ t.val % 6 = 2) → kiN t = 0 := by decide +kernel

/-- Where it continues, the point before has the same batch-head and query block, and the key block before. -/
theorem walk_prev : ∀ t : Fin grid0.N, ¬(t.val % 6 = 0 ∨ t.val % 6 = 2) →
    ∃ h : t.val - 1 < grid0.N, bhN ⟨t.val - 1, h⟩ = bhN t ∧ qiN ⟨t.val - 1, h⟩ = qiN t ∧ kiN ⟨t.val - 1, h⟩ + 1 = kiN t := by
  decide +kernel

/-- At a write-back every key position up to the end of the query block has been visited. -/
theorem walk_done : ∀ t : Fin grid0.N, (t.val % 6 = 1 ∨ t.val % 6 = 5) → (kiN t + 1) * 512 = (qiN t + 1) * 1024 := by
  decide +kernel

/-- Every (batch-head, query block) is written back at some point. -/
theorem walk_onto : ∀ (b : Fin 32) (q : Fin 2), ∃ t : Fin grid0.N, (t.val % 6 = 1 ∨ t.val % 6 = 5) ∧ bhN t = b.val ∧ qiN t = q.val := by
  decide +kernel

end Cert.KernelIdeal.Region

end
-- ==== Proof.Spec.lean ====
/-
  The specification.  For query, key and value arrays `q k v` of shape [2, 16, 2048, 128] (batch, head, position,
  feature) the result at (b, h, i, d) is

      ∑ j, w(b, h, i, j) · v(b, h, j, d),      w(b, h, i, j) = exp (ℓ(b, h, i, j))  for j ≤ i,   exp ⊥ = 0  for j > i,

  with the logit  ℓ(b, h, i, j) = 2s · ⟨q_i, k_j⟩ − s · ⟨q_i, q_i⟩ − s · ⟨k_j, k_j⟩  — that is −s · ‖q_i − k_j‖², spelt the
  way both programs compute it — where `s` is the single-precision number nearest to 1/√128 and `2s` its double,
  again a single-precision number.  The weights are not normalised.  Everything is an extended real: a position
  after `i` carries the weight `exp ⊥ = 0`, and `0 · x = 0` for every extended real `x`.
-/
import Idealize.ShloMosaic.PureOps.Ideal
import Idealize.ShloMosaic.Lib.ValueIdx

noncomputable section

namespace Cert.Spec

open Idealize.ShloMosaic Idealize.ShloMosaic.ValueIdx

/-- The shape of the three arguments and of the result. -/
abbrev A4 : Shape := ⟨4, ![2, 16, 2048, 128]⟩

/-- `s`: 1/√128 rounded to single precision. -/
def scale : EReal := Ideal.ofBits .f32 0x3DB504F3#32
/-- `2s`: the same mantissa, the exponent one higher. -/
def scale2 : EReal := Ideal.ofBits .f32 0x3E3504F3#32

/-- The logit of query position `i` against key position `j`. -/
def logit (q k : A4.Idx → EReal) (b : Fin 2) (h : Fin 16) (i j : Fin 2048) : EReal :=
  scale2 * (∑ e : Fin 128, q (ix4 b h i e) * k (ix4 b h j e))
    - scale * (∑ e : Fin 128, q (ix4 b h i e) * q (ix4 b h i e))
    - scale * (∑ e : Fin 128, k (ix4 b h j e) * k (ix4 b h j e))

/-- The causal weight: the exponential of the logit at or before the query's position, `exp ⊥ = 0` after it. -/
def weight (q k : A4.Idx → EReal) (b : Fin 2) (h : Fin 16) (i j : Fin 2048) : EReal :=
  Ideal.exp (if j.val ≤ i.val then logit q k b h i j else ⊥)

/-- The result: the weighted sum of the value rows. -/
def attn (q k v : A4.Idx → EReal) : A4.Idx → EReal := fun x =>
  ∑ j : Fin 2048, weight q k (x 0) (x 1) (x 2) j * v (ix4 (x 0) (x 1) j (x 3))

end Cert.Spec

end
-- ==== Proof.Payload.lean ====
/-
  The kernel body's arithmetic, index by index.

  The body of the kernel works on one block of 1024 query rows and one block of 512 key and value rows. What it computes
  from the blocks it has loaded is named, in the generated skeleton of the body, by five pure terms; this file reads each
  of them at one index, over the extended reals:

  * `pay3`: the value block, its leading unit axis dropped;
  * `pay2`: the zero block an output block starts from;
  * `pay4`: the logits `2s · ⟨q_r, k_s⟩ − s · ⟨q_r, q_r⟩ − s · ⟨k_s, k_s⟩` of the query block against the key block;
  * `pay5`: the global position of each query row, `1024 · w + r`, as a 32-bit word;
  * `pay1`: the output block after one more key block: what it held plus `∑_s exp(ℓ_rs or ⊥) · v_sd`, the logit kept
    where the key's global position is at most the query's and replaced by `⊥` (so that its weight is `exp ⊥ = 0`) elsewhere;

  and `mask_iff` turns the signed 32-bit comparison of the two global positions into the comparison of the natural
  numbers they stand for. Every step is one of: a pointwise operation read at an index (definitional), a layout
  operation read at an index (a shape cast, a broadcast, a transpose: one small lemma each), a sum along the rows, and a
  matrix product into a zero accumulator read as a finite sum over its contraction index.
-/
import proofs.«157718_j17832704213564_2_alg».proof.Proof.Gen.KernelIdeal.Skeleton
import proofs.«157718_j17832704213564_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Payload

open Cert.KernelIdeal Cert.KernelIdeal.Gen Idealize.ShloMosaic Idealize.ShloMosaic.ValueIdx

/-! ## The mask's constant -/

/-- The large negative constant the body writes where a key is after the query denotes `⊥` over the extended reals, by
the table of named constants: the weight there is `exp ⊥ = 0`. -/
theorem neg_big : Named.named (F := Ideal) Cert.KernelIdeal.κ "neg_big" (φ := .f32) 0xF149F2CA#32 = ⊥ :=
  IdealRules.named_const.ideal_named_scalar _ _ _ _ rfl

/-! ## Layout operations the body uses, read at an index given by coordinates -/

section Layout
variable {α : Type}

/-- An `[a]` array cast to `[a, 1]` (a row sum kept as a column) reads, at `(i, u)`, the operand at `i`: both
positions are `i` in row-major order, the unit coordinate `u` being `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A sum along the rows, and the two matrix products, read at an index -/

/-- The sum of an `[a, b]` array along its second axis reads, at `r`, the sum of row `r`. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ e : Fin b, src (ix2 r e) := by
  refine (Ideal.multiReduction_add_single src _ h hφ hacc (ix1 r)).trans ?_
  refine Finset.sum_congr rfl fun e _ => congrArg src ?_
  funext ax
  refine Fin.ext ?_
  match ax with
  | ⟨0, _⟩ => rfl
  | ⟨1, _⟩ => rfl

/-- A constant `c` times the sum of the squares of each row of an `[a, b]` array, the sums kept as an `[a, 1]` column:
at `(r, u)` it is `c · ∑ e, y (r, e)²`. -/
theorem scaledRowNorm_apply {a b : ℕ} (c : Ideal .f32) (y : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (r : Fin a) (u : Fin 1) :
    mulf (broadcast ⟨2, ![a, 1]⟩ c)
        (shapeCast ⟨2, ![a, 1]⟩ (multiReduction .add [1] ⟨1, ![a]⟩ (mulf y y) 0x00000000#32 h hφ hacc) hc) (ix2 r u)
      = c * ∑ e : Fin b, y (ix2 r e) * y (ix2 r e) := by
  refine (mulf_apply _ _ _).trans (congrArg₂ (· * ·) rfl ?_)
  refine (shapeCast_a_a1_apply _ hc r u).trans ?_
  exact rowSum_apply (mulf y y) h hφ hacc r

/-! ### The product of the query rows with the key rows

`[1024, 128] × [512, 128] → [1024, 512]`, contracting the feature axis of both operands. -/

/-- The left operand's row is the result's row. -/
theorem qk_lhs_row (j : S1024x512.Idx) (q : dot_S1024x128_S512x128_S1024x512_1_1_0_0_n_n.contr.Idx) :
    (dot_S1024x128_S512x128_S1024x512_1_1_0_0_n_n.lhsIdx j q 0).val = (j 0).val := by
  unfold DotDims.lhsIdx
  rw [dif_neg (show ¬(0 : Fin S1024x128.rank) ∈ dot_S1024x128_S512x128_S1024x512_1_1_0_0_n_n.lhsBatch by decide),
    dif_pos (show (0 : Fin S1024x128.rank) ∈ dot_S1024x128_S512x128_S1024x512_1_1_0_0_n_n.lhsNonContracting by decide)]
  rfl

/-- The right operand's row is the result's column. -/
theorem qk_rhs_row (j : S1024x512.Idx) (q : dot_S1024x128_S512x128_S1024x512_1_1_0_0_n_n.contr.Idx) :
    (dot_S1024x128_S512x128_S1024x512_1_1_0_0_n_n.rhsIdx j q 0).val = (j 1).val := by
  unfold DotDims.rhsIdx
  rw [dif_neg (show ¬(0 : Fin S512x128.rank) ∈ dot_S1024x128_S512x128_S1024x512_1_1_0_0_n_n.rhsBatch by decide),
    dif_pos (show (0 : Fin S512x128.rank) ∈ dot_S1024x128_S512x128_S1024x512_1_1_0_0_n_n.rhsNonContracting by decide)]
  rfl

/-- Into a zero accumulator, the product at `(r, s)` is the inner product of query row `r` and key row `s`: the sum
over the contraction index, re-indexed by its one coordinate `e : Fin 128`. -/
theorem matmul_qk_apply (lhs : FVec Ideal S1024x128 .bf16) (rhs : FVec Ideal S512x128 .bf16) (r : Fin 1024) (s : Fin 512) :
    matmul dot_S1024x128_S512x128_S1024x512_1_1_0_0_n_n none lhs rhs (constant S1024x512 .f32 0x00000000#32) (ix2 r s)
      = ∑ e : Fin 128, lhs (ix2 r e) * rhs (ix2 s e) := by
  refine (Ideal.matmul_constant_zero_apply dot_S1024x128_S512x128_S1024x512_1_1_0_0_n_n none lhs rhs (ix2 r s)).trans ?_
  rw [← Equiv.sum_comp (contrEquiv1 dot_S1024x128_S512x128_S1024x512_1_1_0_0_n_n 128 rfl rfl).symm]
  refine Finset.sum_congr rfl fun e _ => ?_
  have hk := contrEquiv1_symm_val dot_S1024x128_S512x128_S1024x512_1_1_0_0_n_n 128 rfl rfl e
  have el : dot_S1024x128_S512x128_S1024x512_1_1_0_0_n_n.lhsIdx (ix2 r s) ((contrEquiv1 dot_S1024x128_S512x128_S1024x512_1_1_0_0_n_n 128 rfl rfl).symm e) = ix2 r e :=
    funext fun a => Fin.ext (by
      match a with
      | ⟨0, _⟩ => exact qk_lhs_row _ _
      | ⟨1, _⟩ => exact (dot_S1024x128_S512x128_S1024x512_1_1_0_0_n_n.lhsIdx_val_of_single rfl _ _).trans hk)
  have er : dot_S1024x128_S512x128_S1024x512_1_1_0_0_n_n.rhsIdx (ix2 r s) ((contrEquiv1 dot_S1024x128_S512x128_S1024x512_1_1_0_0_n_n 128 rfl rfl).symm e) = ix2 s e :=
    funext fun a => Fin.ext (by
      match a with
      | ⟨0, _⟩ => exact qk_rhs_row _ _
      | ⟨1, _⟩ => exact (dot_S1024x128_S512x128_S1024x512_1_1_0_0_n_n.rhsIdx_val_of_single rfl _ _).trans hk)
  rw [el, er]

/-! ### The product of the weights with the value rows

`[1024, 512] × [512, 128] → [1024, 128]`, contracting the key position. -/

/-- The left operand's row is the result's row. -/
theorem pv_lhs_row (j : S1024x128.Idx) (q : dot_S1024x512_S512x128_S1024x128_1_0_0_1_n_n.contr.Idx) :
    (dot_S1024x512_S512x128_S1024x128_1_0_0_1_n_n.lhsIdx j q 0).val = (j 0).val := by
  unfold DotDims.lhsIdx
  rw [dif_neg (show ¬(0 : Fin S1024x512.rank) ∈ dot_S1024x512_S512x128_S1024x128_1_0_0_1_n_n.lhsBatch by decide),
    dif_pos (show (0 : Fin S1024x512.rank) ∈ dot_S1024x512_S512x128_S1024x128_1_0_0_1_n_n.lhsNonContracting by decide)]
  rfl

/-- The right operand's column is the result's column. -/
theorem pv_rhs_col (j : S1024x128.Idx) (q : dot_S1024x512_S512x128_S1024x128_1_0_0_1_n_n.contr.Idx) :
    (dot_S1024x512_S512x128_S1024x128_1_0_0_1_n_n.rhsIdx j q 1).val = (j 1).val := by
  unfold DotDims.rhsIdx
  rw [dif_neg (show ¬(1 : Fin S512x128.rank) ∈ dot_S1024x512_S512x128_S1024x128_1_0_0_1_n_n.rhsBatch by decide),
    dif_pos (show (1 : Fin S512x128.rank) ∈ dot_S1024x512_S512x128_S1024x128_1_0_0_1_n_n.rhsNonContracting by decide)]
  rfl

/-- Into a zero accumulator, the product at `(r, d)` is the sum over the key positions `s` of weight `(r, s)` times
value `(s, d)`. -/
theorem matmul_pv_apply (lhs : FVec Ideal S1024x512 .bf16) (rhs : FVec Ideal S512x128 .bf16) (r : Fin 1024) (d : Fin 128) :
    matmul dot_S1024x512_S512x128_S1024x128_1_0_0_1_n_n none lhs rhs (constant S1024x128 .f32 0x00000000#32) (ix2 r d)
      = ∑ s : Fin 512, lhs (ix2 r s) * rhs (ix2 s d) := by
  refine (Ideal.matmul_constant_zero_apply dot_S1024x512_S512x128_S1024x128_1_0_0_1_n_n none lhs rhs (ix2 r d)).trans ?_
  rw [← Equiv.sum_comp (contrEquiv1 dot_S1024x512_S512x128_S1024x128_1_0_0_1_n_n 512 rfl rfl).symm]
  refine Finset.sum_congr rfl fun s _ => ?_
  have hk := contrEquiv1_symm_val dot_S1024x512_S512x128_S1024x128_1_0_0_1_n_n 512 rfl rfl s
  have el : dot_S1024x512_S512x128_S1024x128_1_0_0_1_n_n.lhsIdx (ix2 r d) ((contrEquiv1 dot_S1024x512_S512x128_S1024x128_1_0_0_1_n_n 512 rfl rfl).symm s) = ix2 r s :=
    funext fun a => Fin.ext (by
      match a with
      | ⟨0, _⟩ => exact pv_lhs_row _ _
      | ⟨1, _⟩ => exact (dot_S1024x512_S512x128_S1024x128_1_0_0_1_n_n.lhsIdx_val_of_single rfl _ _).trans hk)
  have er : dot_S1024x512_S512x128_S1024x128_1_0_0_1_n_n.rhsIdx (ix2 r d) ((contrEquiv1 dot_S1024x512_S512x128_S1024x128_1_0_0_1_n_n 512 rfl rfl).symm s) = ix2 s d :=
    funext fun a => Fin.ext (by
      match a with
      | ⟨0, _⟩ => exact (dot_S1024x512_S512x128_S1024x128_1_0_0_1_n_n.rhsIdx_val_of_single rfl _ _).trans hk
      | ⟨1, _⟩ => exact pv_rhs_col _ _)
  rw [el, er]

/-! ## The value block, the zero block and the query positions -/

/-- The value block with its leading unit axis dropped: at `(s, d)` the loaded block at `(0, s, d)`. -/
theorem pay3_apply (x : Vec Ideal S1x512x128 .f32) (s : Fin 512) (d : Fin 128) :
    k0_pay3 (F := Ideal) x (ix2 s d) = x (ix3 0 s d) := by
  unfold k0_pay3
  exact shapeCast_1ab_ab_apply x _ s d

/-- The block an output block starts from is zero everywhere. -/
theorem pay2_apply (r : Fin 1024) (d : Fin 128) : k0_pay2 (F := Ideal) (ix3 0 r d) = 0 := by
  unfold k0_pay2
  refine (shapeCast_ab_1ab_apply _ _ 0 r d).trans ?_
  exact Ideal.ofBits_zero_f32

/-- The global position of query row `r` of query block `w`: the word `1024 · w + r`. -/
theorem pay5_apply (w : BitVec 32) (r : Fin 1024) :
    k0_pay5 (F := Ideal) w (ix2 r 0) = w * 1024#32 + BitVec.ofNat 32 r.val := by
  unfold k0_pay5
  show IntOp.addi (Scalar.muli w 1024#32) (iota .tc S1024x1 32 [0] iota_S1024x1_d0_w32 (ix2 r 0)) = _
  rw [iota_single_apply]
  rfl

/-! ## The logits -/

/-- The logit of query row `r` against key row `s`: twice the scaled inner product, less the scaled squared norm of the
query row (a column broadcast along the keys), less the scaled squared norm of the key row (a column transposed to a
row and broadcast along the queries). The narrowing of the two operands of the product to bf16 is the identity on
extended reals, and both blocks are read with their leading unit axis dropped. -/
theorem pay4_apply (x0 : Vec Ideal S1x1024x128 .f32) (x1 : Vec Ideal S1x512x128 .f32) (r : Fin 1024) (s : Fin 512) :
    k0_pay4 (F := Ideal) x0 x1 (ix2 r s)
      = Cert.Spec.scale2 * (∑ e : Fin 128, x0 (ix3 0 r e) * x1 (ix3 0 s e))
        - Cert.Spec.scale * (∑ e : Fin 128, x0 (ix3 0 r e) * x0 (ix3 0 r e))
        - Cert.Spec.scale * (∑ e : Fin 128, x1 (ix3 0 s e) * x1 (ix3 0 s e)) := by
  unfold k0_pay4
  refine (subf_apply _ _ _).trans ?_
  refine congrArg₂ (· - ·) ((subf_apply _ _ _).trans (congrArg₂ (· - ·) ?_ ?_)) ?_
  · -- 2s · ⟨q_r, k_s⟩
    refine (mulf_apply _ _ _).trans (congrArg₂ (· * ·) rfl ?_)
    refine (matmul_qk_apply _ _ r s).trans (Finset.sum_congr rfl fun e _ => ?_)
    exact congrArg₂ (· * ·) (shapeCast_1ab_ab_apply x0 _ r e) (shapeCast_1ab_ab_apply x1 _ s e)
  · -- s · ⟨q_r, q_r⟩
    refine (broadcastTo_a1_ab_apply _ _ r s).trans ?_
    refine (scaledRowNorm_apply _ _ _ _ _ _ r 0).trans ?_
    refine congrArg₂ (· * ·) rfl (Finset.sum_congr rfl fun e _ => ?_)
    exact congrArg₂ (· * ·) (shapeCast_1ab_ab_apply x0 _ r e) (shapeCast_1ab_ab_apply x0 _ r e)
  · -- s · ⟨k_s, k_s⟩
    refine (broadcastTo_1b_ab_apply _ _ r s).trans ?_
    refine (transpose_ix2_apply _ _ 0 s).trans ?_
    refine (scaledRowNorm_apply _ _ _ _ _ _ s 0).trans ?_
    refine congrArg₂ (· * ·) rfl (Finset.sum_congr rfl fun e _ => ?_)
    exact congrArg₂ (· * ·) (shapeCast_1ab_ab_apply x1 _ s e) (shapeCast_1ab_ab_apply x1 _ s e)

/-! ## The causal mask and the accumulation -/

/-- A select on a one-bit word that encodes a Boolean is the `if` on the Boolean. -/
theorem select_ofBool {α : Type} (b : Bool) (x y : α) :
    Scalar.select (BitVec.ofBool b) x y = if b then x else y := by
  cases b <;> rfl

/-- The global position of key `s` of the block that starts at word `w`: the row `w + iota`, read at column `s`. -/
theorem keyPos_apply (w : BitVec 32) (h : S1x512.Iotas .tc 32 [1]) (u : Fin 1) (s : Fin 512) :
    addi (broadcast S1x512 w) (iota .tc S1x512 32 [1] h) (ix2 u s) = w + BitVec.ofNat 32 s.val := by
  show IntOp.addi w (iota .tc S1x512 32 [1] h (ix2 u s)) = _
  rw [iota_single_apply]
  rfl

/-- The masked logits at `(r, s)`: the logit where the key's global position is at most the query's (a signed
comparison of 32-bit words: the query positions a column broadcast along the keys, the key positions a row broadcast
along the queries), and `⊥` elsewhere. -/
theorem masked_apply (v32 : FVec Ideal S1024x512 .f32) (v36 : IVec S1024x1 32) (v37 : BitVec 32)
    (hi : S1x512.Iotas .tc 32 [1]) (hq : S1024x1.Broadcasts S1024x512) (hk : S1x512.Broadcasts S1024x512)
    (r : Fin 1024) (s : Fin 512) :
    select (cmpi .sge (broadcastTo S1024x512 v36 hq)
          (broadcastTo S1024x512 (addi (broadcast S1x512 v37) (iota .tc S1x512 32 [1] hi)) hk))
        v32 (broadcast S1024x512 (Named.named Cert.KernelIdeal.κ "neg_big" (φ := .f32) 0xF149F2CA#32)) (ix2 r s)
      = if BitVec.sle (v37 + BitVec.ofNat 32 s.val) (v36 (ix2 r 0)) then v32 (ix2 r s) else ⊥ := by
  show Scalar.select (BitVec.ofBool (BitVec.sle
        (broadcastTo S1024x512 (addi (broadcast S1x512 v37) (iota .tc S1x512 32 [1] hi)) hk (ix2 r s))
        (broadcastTo S1024x512 v36 hq (ix2 r s))))
      (v32 (ix2 r s)) (Named.named Cert.KernelIdeal.κ "neg_big" (φ := .f32) 0xF149F2CA#32) = _
  rw [select_ofBool, neg_big, broadcastTo_a1_ab_apply, broadcastTo_1b_ab_apply, keyPos_apply]

/-- The output block after one more key block: at `(0, r, d)` what it held there plus the sum over the block's keys `s`
of the weight of `(r, s)` — the exponential of the masked logit — times the value row `s` at `d`. The narrowing of the
weights and of the values to bf16 is the identity on extended reals. -/
theorem pay1_apply (v12 : FVec Ideal S512x128 .f32) (v32 : FVec Ideal S1024x512 .f32) (v36 : IVec S1024x1 32)
    (v37 : BitVec 32) (v50 : Vec Ideal S1x1024x128 .f32) (r : Fin 1024) (d : Fin 128) :
    k0_pay1 (F := Ideal) v12 v32 v36 v37 v50 (ix3 0 r d)
      = v50 (ix3 0 r d) + ∑ s : Fin 512,
          Ideal.exp (if BitVec.sle (v37 + BitVec.ofNat 32 s.val) (v36 (ix2 r 0)) then v32 (ix2 r s) else ⊥)
            * v12 (ix2 s d) := by
  unfold k0_pay1
  refine (shapeCast_ab_1ab_apply _ _ 0 r d).trans ?_
  refine (addf_apply _ _ _).trans ?_
  refine congrArg₂ (· + ·) (shapeCast_1ab_ab_apply v50 _ r d) ?_
  refine (matmul_pv_apply _ _ r d).trans (Finset.sum_congr rfl fun s _ => ?_)
  refine congrArg₂ (· * ·) ?_ rfl
  exact congrArg Ideal.exp (masked_apply v32 v36 v37 _ _ _ r s)

/-! ## The comparison of the positions -/

/-- Two naturals below `2³¹`, as 32-bit words, compare as signed integers the way they compare as naturals. -/
theorem sle_ofNat_iff (a b : Nat) (ha : a < 2 ^ 31) (hb : b < 2 ^ 31) :
    BitVec.sle (BitVec.ofNat 32 a) (BitVec.ofNat 32 b) = true ↔ a ≤ b := by
  rw [BitVec.sle_iff_toInt_le, BitVec.toInt_eq_toNat_cond, BitVec.toInt_eq_toNat_cond, BitVec.toNat_ofNat,
    BitVec.toNat_ofNat, Nat.mod_eq_of_lt (show a < 2 ^ 32 by omega), Nat.mod_eq_of_lt (show b < 2 ^ 32 by omega)]
  split <;> split <;> omega

/-- The body's test "key position ≤ query position", on the words `512 · ki + s` and `1024 · qi + r` of key block `ki`
and query block `qi`, is the comparison of those naturals: all of them are below `2048`, far from the sign bit. -/
theorem mask_iff (qi ki : Nat) (hq : qi < 2) (hk : ki < 4) (r : Fin 1024) (s : Fin 512) :
    BitVec.sle (BitVec.ofNat 32 ki * 512#32 + BitVec.ofNat 32 s.val)
        (BitVec.ofNat 32 qi * 1024#32 + BitVec.ofNat 32 r.val) = true
      ↔ ki * 512 + s.val ≤ qi * 1024 + r.val := by
  have hs := s.isLt
  have hr := r.isLt
  rw [show (512#32 : BitVec 32) = BitVec.ofNat 32 512 from rfl, show (1024#32 : BitVec 32) = BitVec.ofNat 32 1024 from rfl,
    BitVec.ofNat_mul_ofNat, BitVec.ofNat_mul_ofNat, BitVec.ofNat_add_ofNat, BitVec.ofNat_add_ofNat]
  exact sle_ofNat_iff _ _ (by omega) (by omega)

end Cert.Payload

end
-- ==== Proof.Spec3.lean ====
/-
  The specification on three axes, and the passage between the two forms.

  The statement is about arrays of shape [2, 16, 2048, 128] (batch, head, position, feature).  The computation itself
  runs on arrays of shape [32, 2048, 128]: batch and head are merged into one leading axis, row-major, so that the pair
  (b, h) becomes the single coordinate 16·b + h; the result, again [32, 2048, 128], is split back into
  [2, 16, 2048, 128] the same way.  A reshape moves no entry: it keeps every entry at its position in the row-major
  enumeration of the array.  Since

      ((b·16 + h)·2048 + n)·128 + e  =  ((16·b + h)·2048 + n)·128 + e,

  entry (b, h, n, e) of a four-axis array and entry (16·b + h, n, e) of its three-axis form are the same entry
  (`merge_apply`, `split_apply`).

  Attention treats each (batch, head) pair on its own — the sums run over positions and features only — so the
  three-axis form of the specification (`logit3`, `weight3`, `attn3`: the definitions of `Cert.Spec` with the
  pair (b, h) replaced by one coordinate) applied to the merged arguments and split back is the four-axis
  specification applied to the arguments themselves (`attn_reshape`).
-/
import proofs.«157718_j17832704213564_2_alg».proof.Proof.Spec
import Idealize.ShloMosaic.Lib.Pipeline.Value
import Idealize.ShloMosaic.Lib.ValueIdx

noncomputable section

namespace Cert.Spec3

open Idealize.ShloMosaic Idealize.ShloMosaic.ValueIdx Cert.Spec

/-- The shape with batch and head merged: 32 = 2 · 16 slices of 2048 positions by 128 features. -/
abbrev A3 : Shape := ⟨3, ![32, 2048, 128]⟩

/-- The logit of query position `i` against key position `j` in slice `b`:
    2s · ⟨q_i, k_j⟩ − s · ⟨q_i, q_i⟩ − s · ⟨k_j, k_j⟩. -/
def logit3 (q k : A3.Idx → EReal) (b : Fin 32) (i j : Fin 2048) : EReal :=
  scale2 * (∑ e : Fin 128, q (ix3 b i e) * k (ix3 b j e))
    - scale * (∑ e : Fin 128, q (ix3 b i e) * q (ix3 b i e))
    - scale * (∑ e : Fin 128, k (ix3 b j e) * k (ix3 b j e))

/-- The causal weight in slice `b`: the exponential of the logit at or before the query's position, `exp ⊥ = 0` after it. -/
def weight3 (q k : A3.Idx → EReal) (b : Fin 32) (i j : Fin 2048) : EReal :=
  Ideal.exp (if j.val ≤ i.val then logit3 q k b i j else ⊥)

/-- The result on three axes: in every slice, the weighted sum of the value rows. -/
def attn3 (q k v : A3.Idx → EReal) : A3.Idx → EReal := fun x =>
  ∑ j : Fin 2048, weight3 q k (x 0) (x 1) j * v (ix3 (x 0) j (x 2))

/-! ## A reshape read at an index -/

/-- The merged coordinate of a (batch, head) pair is one of the 32 slices: with b ≤ 1 and h ≤ 15, 16·b + h ≤ 31. -/
theorem merged_lt (b : Fin 2) (hd : Fin 16) : 16 * b.val + hd.val < 32 := by
  have hb := b.isLt
  have hh := hd.isLt
  omega

/-- Merging batch and head: entry (16·b + h, n, e) of the three-axis form is entry (b, h, n, e) of the array.  Both sit
    at the same row-major position: ((b·16 + h)·2048 + n)·128 + e = ((16·b + h)·2048 + n)·128 + e. -/
theorem merge_apply (x : A4.Idx → EReal) (h : A4.ShapeCasts A3) (b : Fin 2) (hd : Fin 16) (n : Fin 2048) (e : Fin 128) :
    shapeCast A3 x h (ix3 ⟨16 * b.val + hd.val, by omega⟩ n e) = x (ix4 b hd n e) :=
  shapeCast_apply x h _ _ (by
    rw [Shape.rowMajor_val_four, Shape.rowMajor_val_three]
    show ((b.val * 16 + hd.val) * 2048 + n.val) * 128 + e.val = ((16 * b.val + hd.val) * 2048 + n.val) * 128 + e.val
    omega)

/-- Splitting the leading axis back into batch and head: entry (b, h, n, e) of the four-axis form is entry
    (16·b + h, n, e) of the array — the same equation of positions read the other way. -/
theorem split_apply (y : A3.Idx → EReal) (h : A3.ShapeCasts A4) (b : Fin 2) (hd : Fin 16) (n : Fin 2048) (e : Fin 128) :
    shapeCast A4 y h (ix4 b hd n e) = y (ix3 ⟨16 * b.val + hd.val, by omega⟩ n e) :=
  shapeCast_apply y h _ _ (by
    rw [Shape.rowMajor_val_three, Shape.rowMajor_val_four]
    show ((16 * b.val + hd.val) * 2048 + n.val) * 128 + e.val = ((b.val * 16 + hd.val) * 2048 + n.val) * 128 + e.val
    omega)

/-! ## The specification through the merge -/

/-- An inner product of two rows of merged arrays is the inner product of the rows they came from: row `m` of slice
    16·b + h of the merged `x` is row `m` of `x` at (b, h), feature by feature. -/
theorem dot_merge (x y : A4.Idx → EReal) (h43 : A4.ShapeCasts A3) (b : Fin 2) (hd : Fin 16) (m n : Fin 2048) :
    (∑ e : Fin 128, shapeCast A3 x h43 (ix3 ⟨16 * b.val + hd.val, merged_lt b hd⟩ m e)
        * shapeCast A3 y h43 (ix3 ⟨16 * b.val + hd.val, merged_lt b hd⟩ n e))
      = ∑ e : Fin 128, x (ix4 b hd m e) * y (ix4 b hd n e) :=
  Finset.sum_congr rfl fun e _ => by rw [merge_apply x h43 b hd m e, merge_apply y h43 b hd n e]

/-- The logit of the merged arrays in slice 16·b + h is the logit of the arrays at (b, h): it is built from three inner
    products of rows, each unchanged by the merge. -/
theorem logit3_merge (q k : A4.Idx → EReal) (h43 : A4.ShapeCasts A3) (b : Fin 2) (hd : Fin 16) (i j : Fin 2048) :
    logit3 (shapeCast A3 q h43) (shapeCast A3 k h43) ⟨16 * b.val + hd.val, merged_lt b hd⟩ i j = logit q k b hd i j := by
  unfold logit3 logit
  rw [dot_merge q k h43 b hd i j, dot_merge q q h43 b hd i i, dot_merge k k h43 b hd j j]

/-- The causal weight of the merged arrays in slice 16·b + h is the weight of the arrays at (b, h): the causal
    condition j ≤ i concerns positions only, and the logit is unchanged. -/
theorem weight3_merge (q k : A4.Idx → EReal) (h43 : A4.ShapeCasts A3) (b : Fin 2) (hd : Fin 16) (i j : Fin 2048) :
    weight3 (shapeCast A3 q h43) (shapeCast A3 k h43) ⟨16 * b.val + hd.val, merged_lt b hd⟩ i j = weight q k b hd i j := by
  unfold weight3 weight
  rw [logit3_merge q k h43 b hd i j]

/-- Merge, attend on three axes, split: the four-axis specification.  At (b, h, i, d) the split reads the three-axis
    result at (16·b + h, i, d); there every weight and every value entry of the merged arrays is the weight and the
    value entry of the arguments at (b, h). -/
theorem attn_reshape (q k v : A4.Idx → EReal) (h43 : A4.ShapeCasts A3) (h34 : A3.ShapeCasts A4) :
    shapeCast A4 (attn3 (shapeCast A3 q h43) (shapeCast A3 k h43) (shapeCast A3 v h43)) h34 = Cert.Spec.attn q k v := by
  funext x
  obtain ⟨b, hd, i, d, rfl⟩ : ∃ (b : Fin 2) (hd : Fin 16) (i : Fin 2048) (d : Fin 128), x = ix4 b hd i d :=
    ⟨x 0, x 1, x 2, x 3, eq_ix4 x⟩
  rw [split_apply _ h34 b hd i d]
  show (∑ j : Fin 2048,
          weight3 (shapeCast A3 q h43) (shapeCast A3 k h43) ⟨16 * b.val + hd.val, merged_lt b hd⟩ i j
            * shapeCast A3 v h43 (ix3 ⟨16 * b.val + hd.val, merged_lt b hd⟩ j d))
      = ∑ j : Fin 2048, weight q k b hd i j * v (ix4 b hd j d)
  refine Finset.sum_congr rfl fun j _ => ?_
  rw [weight3_merge q k h43 b hd i j, merge_apply v h43 b hd j d]

end Cert.Spec3

end
-- ==== Proof.BlockSum.lean ====
/-
  Sums over the first n key positions, taken 512 at a time.

  The kernel adds one key block's contribution Σ_{c < 512} f (512·k + c) at a time; the reference sums over all
  2048 positions at once.  The two meet through the partial sums upTo f n = Σ_{j < n} f j: they start at 0, grow by
  one block per step, and stop growing once f vanishes (the causal weights do, after the query's position).  Only
  commutativity and associativity of addition are used, so everything holds in the extended reals as it stands.
-/
import Idealize.ShloMosaic.PureOps.Ideal

noncomputable section

namespace Cert.BlockSum

open Finset

/-- The sum of the first \`n\` terms. -/
def upTo (f : ℕ → EReal) (n : ℕ) : EReal := ∑ j ∈ range n, f j

theorem upTo_zero (f : ℕ → EReal) : upTo f 0 = 0 := by
  unfold upTo; rw [Finset.range_zero, Finset.sum_empty]

/-- One more block of 512 terms. -/
theorem upTo_block (f : ℕ → EReal) (k : ℕ) :
    upTo f ((k + 1) * 512) = upTo f (k * 512) + ∑ c : Fin 512, f (k * 512 + c.val) := by
  unfold upTo
  rw [show (k + 1) * 512 = k * 512 + 512 by ring, Finset.sum_range_add]
  exact congrArg (_ + ·) (Finset.sum_range fun x => f (k * 512 + x))

/-- Terms that vanish from \`n\` on add nothing. -/
theorem upTo_of_tail_zero (f : ℕ → EReal) {n N : ℕ} (hn : n ≤ N) (h0 : ∀ j, n ≤ j → j < N → f j = 0) :
    upTo f N = upTo f n := by
  unfold upTo
  obtain ⟨d, rfl⟩ := Nat.exists_eq_add_of_le hn
  have hz : ∑ x ∈ range d, f (n + x) = 0 :=
    Finset.sum_eq_zero fun x hx => h0 _ (by omega) (by have := Finset.mem_range.mp hx; omega)
  rw [Finset.sum_range_add, hz, add_zero]

/-- The partial sum over all \`N\` positions is the sum over \`Fin N\`. -/
theorem upTo_fin (f : ℕ → EReal) (N : ℕ) : upTo f N = ∑ j : Fin N, f j.val := Finset.sum_range f

end Cert.BlockSum

end
-- ==== Proof.AccValue.lean ====
/-
  The accumulator, evaluated.  With Q, K, V the three [32, 2048, 128] arrays the launch finds, write

      term b i d j  =  w(b, i, j) · V(b, j, d)        (0 beyond the 2048 key positions)

  for the causal weight w of the specification on three axes.  After the point at step s of batch-head b, entry (r, d)
  of the output buffer is the sum of the terms of row i = qi s · 1024 + r over the key positions j < (ki s + 1) · 512:
  one block of 512 positions is added per point, starting from zero where ki s = 0.
-/
import proofs.«157718_j17832704213564_2_alg».proof.Proof.Blocks
import proofs.«157718_j17832704213564_2_alg».proof.Proof.Payload
import proofs.«157718_j17832704213564_2_alg».proof.Proof.Spec3
import proofs.«157718_j17832704213564_2_alg».proof.Proof.BlockSum

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL Idealize.SL.Sem
open Cert.Spec3 Cert.BlockSum

variable (m : (ℓ : Loc nD τ sig) → Buf (Elt Ideal) ℓ)

/-- The three arrays the launch finds, as extended-real arrays of shape [32, 2048, 128]. -/
abbrev Q3 (c : Dev nD) : A3.Idx → EReal := V m c main_v0
abbrev K3 (c : Dev nD) : A3.Idx → EReal := V m c main_v1
abbrev V3 (c : Dev nD) : A3.Idx → EReal := V m c main_v2

/-- The contribution of key position \`j\` to entry (b, i, d) of the result, for any three arrays. -/
def termOf (Q K W : A3.Idx → EReal) (b : Fin 32) (i : Fin 2048) (d : Fin 128) (j : ℕ) : EReal :=
  if h : j < 2048 then weight3 Q K b i ⟨j, h⟩ * W (ix3 b ⟨j, h⟩ d) else 0

/-- The same, for the arrays the launch finds. -/
abbrev term (c : Dev nD) : Fin 32 → Fin 2048 → Fin 128 → ℕ → EReal := termOf (Q3 m c) (K3 m c) (V3 m c)

/-- A table word is the 32-bit numeral of its value. -/
theorem wq_ofNat (c : Dev nD) (t : Fin (cfgM m).N) : wq m c t = BitVec.ofNat 32 (qiN t) := by
  rw [wq_eq]; unfold qiN
  exact BitVec.eq_of_toNat_eq (by rw [BitVec.toNat_ofNat]; exact (Nat.mod_eq_of_lt (BitVec.isLt _)).symm)
theorem wk_ofNat (c : Dev nD) (t : Fin (cfgM m).N) : wk m c t = BitVec.ofNat 32 (kiN t) := by
  rw [wk_eq]; unfold kiN
  exact BitVec.eq_of_toNat_eq (by rw [BitVec.toNat_ofNat]; exact (Nat.mod_eq_of_lt (BitVec.isLt _)).symm)

/-- ONE POINT, over any blocks: if the query block is rows qn · 1024 + · of batch-head b of Q and the key and value
    blocks are rows kn · 512 + · of K and W, the body adds to entry (r, d) of the buffer the terms of row
    i = qn · 1024 + r at the 512 key positions kn · 512 + s: the mask keeps exactly the positions at or before i,
    the kept logit is the specification's, a masked one gives exp ⊥ = 0. -/
theorem bodyOut_terms (x0 : Vec Ideal S1x1024x128 .f32) (x1 x2 : Vec Ideal S1x512x128 .f32) (w0 w1 : BitVec 32)
    (acc : Vec Ideal S1x1024x128 .f32) (Q K W : A3.Idx → EReal) (qn kn : ℕ) (hq : qn < 2) (hk : kn < 4)
    (hw0 : w0 = BitVec.ofNat 32 qn) (hw1 : w1 = BitVec.ofNat 32 kn)
    (b : Fin 32) (i : Fin 2048) (r : Fin 1024) (d : Fin 128) (hi : i.val = qn * 1024 + r.val)
    (h0 : ∀ e : Fin 128, x0 (ix3 0 r e) = Q (ix3 b i e))
    (h1 : ∀ (s : Fin 512) (hj : kn * 512 + s.val < 2048) (e : Fin 128), x1 (ix3 0 s e) = K (ix3 b ⟨kn * 512 + s.val, hj⟩ e))
    (h2 : ∀ (s : Fin 512) (hj : kn * 512 + s.val < 2048), x2 (ix3 0 s d) = W (ix3 b ⟨kn * 512 + s.val, hj⟩ d)) :
    bodyOut x0 x1 x2 w0 w1 acc (ix3 0 r d) = acc (ix3 0 r d) + ∑ s : Fin 512, termOf Q K W b i d (kn * 512 + s.val) := by
  subst hw0 hw1
  unfold bodyOut
  rw [Cert.Payload.pay1_apply]
  refine congrArg (acc (ix3 0 r d) + ·) (Finset.sum_congr rfl fun s _ => ?_)
  have hj : kn * 512 + s.val < 2048 := by have := s.isLt; omega
  rw [Cert.Payload.pay3_apply, h2 s hj, Cert.Payload.pay5_apply]
  unfold termOf
  rw [dif_pos hj]
  unfold weight3
  have hmask := Cert.Payload.mask_iff qn kn hq hk r s
  by_cases hle : kn * 512 + s.val ≤ qn * 1024 + r.val
  · rw [if_pos (show (Scalar.muli (BitVec.ofNat 32 kn) 512#32 + BitVec.ofNat 32 s.val).sle (BitVec.ofNat 32 qn * 1024#32 + BitVec.ofNat 32 r.val) = true from hmask.mpr hle),
      if_pos (show (⟨kn * 512 + s.val, hj⟩ : Fin 2048).val ≤ i.val by rw [hi]; exact hle)]
    refine congrArg (fun x => Ideal.exp x * _) ?_
    rw [Cert.Payload.pay4_apply]
    unfold logit3
    simp only [h0, h1 s hj]
  · rw [if_neg (show ¬(Scalar.muli (BitVec.ofNat 32 kn) 512#32 + BitVec.ofNat 32 s.val).sle (BitVec.ofNat 32 qn * 1024#32 + BitVec.ofNat 32 r.val) = true from fun h => hle (hmask.mp h)),
      if_neg (show ¬(⟨kn * 512 + s.val, hj⟩ : Fin 2048).val ≤ i.val by rw [hi]; exact hle)]

/-- ONE POINT of the launch: the body adds to entry (r, d) of the buffer the terms of the point's 512 key positions. -/
theorem bodyOut_apply (c : Dev nD) (t : Fin (cfgM m).N) (acc : Vec Ideal S1x1024x128 .f32) (r : Fin 1024) (d : Fin 128)
    (b : Fin 32) (i : Fin 2048) (hb : b.val = bhN t) (hi : i.val = qiN t * 1024 + r.val) :
    bodyOut (iblk m c 0 t) (iblk m c 1 t) (iblk m c 2 t) (wq m c t) (wk m c t) acc (ix3 0 r d)
      = acc (ix3 0 r d) + ∑ s : Fin 512, term m c b i d (kiN t * 512 + s.val) :=
  bodyOut_terms (iblk m c 0 t) (iblk m c 1 t) (iblk m c 2 t) (wq m c t) (wk m c t) acc (Q3 m c) (K3 m c) (V3 m c)
    (qiN t) (kiN t) (qi_lt t) (ki_lt t) (wq_ofNat m c t) (wk_ofNat m c t) b i r d hi
    (fun e => iblk_q_apply m c t r e (ix3 b i e) hb hi rfl)
    (fun s hj e => iblk_k_apply m c t s e (ix3 b ⟨kiN t * 512 + s.val, hj⟩ e) hb rfl rfl)
    (fun s hj => iblk_v_apply m c t s d (ix3 b ⟨kiN t * 512 + s.val, hj⟩ d) hb rfl rfl)

/-- AFTER EVERY POINT the buffer's entry (r, d) is the partial sum of row qi · 1024 + r over the key positions visited
    so far: by induction on the point, the point before having the same batch-head and query block and the key
    block before. -/
theorem accAt_apply (c : Dev nD) : ∀ (n : ℕ) (hn : n < (cfgM m).N) (r : Fin 1024) (d : Fin 128) (b : Fin 32) (i : Fin 2048),
    b.val = bhN ⟨n, hn⟩ → i.val = qiN ⟨n, hn⟩ * 1024 + r.val →
    accAt m c n hn (ix3 0 r d) = upTo (term m c b i d) ((kiN ⟨n, hn⟩ + 1) * 512) := by
  intro n
  induction n using Nat.strong_induction_on with
  | _ n ih =>
    intro hn r d b i hb hi
    by_cases h0 : resets (wk m c ⟨n, hn⟩)
    · have hs := (resets_iff m c ⟨n, hn⟩).mp h0
      have e := accAt_first m c ⟨n, hn⟩ h0
      rw [show accAt m c n hn = _ from e, bodyOut_apply m c ⟨n, hn⟩ _ r d b i hb hi, Cert.Payload.pay2_apply, zero_add,
        ki_of_restart ⟨n, hn⟩ hs, upTo_block, Nat.zero_mul, upTo_zero, zero_add]
    · have hs : ¬(n % 6 = 0 ∨ n % 6 = 2) := fun e => h0 ((resets_iff m c ⟨n, hn⟩).mpr e)
      obtain ⟨hlt, e1, e2, e3⟩ := walk_prev ⟨n, hn⟩ hs
      have hn0 : n ≠ 0 := fun e => hs (.inl (by rw [e]))
      have e := accAt_next m c ⟨n, hn⟩ h0 hn0
      rw [show accAt m c n hn = _ from e, bodyOut_apply m c ⟨n, hn⟩ _ r d b i hb hi]
      have ihp := ih (n - 1) (by omega) hlt r d b i (hb.trans e1.symm) (by rw [e2]; exact hi)
      rw [show accAt m c ((⟨n, hn⟩ : Fin (cfgM m).N).val - 1) _ = accAt m c (n - 1) hlt from rfl, ihp, e3]
      exact (upTo_block _ _).symm

end Cert.KernelIdeal.Region

end
-- ==== Proof.Run.lean ====
/-
  The launch, run: the body's two cases discharge the launch's obligation at every grid point, so every weakly fair
  execution of @main terminates with the four staged arrays at what the recursion of write-backs computes from the
  accumulator, and every other buffer at what the reshape after the launch makes of them.
-/
import proofs.«157718_j17832704213564_2_alg».proof.Proof.Data

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Each window's current staging buffer at point \`t\`. -/
abbrev ms0 (t : Fin (cfgM m).N) : Memref sig .tc .vmem S1x1024x128 .f32 := spec0_0.stage ((cfgM m).slots t 0)
abbrev ms1 (t : Fin (cfgM m).N) : Memref sig .tc .vmem S1x512x128 .f32 := spec0_1.stage ((cfgM m).slots t 1)
abbrev ms2 (t : Fin (cfgM m).N) : Memref sig .tc .vmem S1x512x128 .f32 := spec0_2.stage ((cfgM m).slots t 2)
abbrev ms3 (t : Fin (cfgM m).N) : Memref sig .tc .vmem S1x1024x128 .f32 := spec0_3.stage ((cfgM m).slots t 3)

/-- The body as the launch calls it at point \`t\`. -/
abbrev bodyAt (t : Fin (cfgM m).N) : Prog (TpuEff nD τ sig (Elt F) Λ₀ .tc) PUnit :=
  cc0__rbf_causal_kernel (grid0.coords t) (Memref.whole main_c) (Memref.isWhole_whole _) (Memref.whole main_c_0) (Memref.isWhole_whole _)
    (spec0_0.stage ((cfgM m).slots t 0)) (hstage0_0 (((cfgM m).slots t 0).cast nbuf0_0))
    (spec0_1.stage ((cfgM m).slots t 1)) (hstage0_1 (((cfgM m).slots t 1).cast nbuf0_1))
    (spec0_2.stage ((cfgM m).slots t 2)) (hstage0_2 (((cfgM m).slots t 2).cast nbuf0_2))
    (spec0_3.stage ((cfgM m).slots t 3)) (hstage0_3 (((cfgM m).slots t 3).cast nbuf0_3))

/-- The tables' read-only halves, one by one. -/
theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- What the body is called with at point \`t\`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t))

set_option maxHeartbeats 800000 in
/-- The body at any point: where the key block number is 0 the first case applies to whatever the output buffer
    holds; elsewhere the buffer holds the accumulator of the point before and the second case applies. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = iprop(Pipeline.ΦA spec0 c ∗ Pipeline.ΦT pre0 (tbl m) c) from rfl, PhiT_eq]
  by_cases h0 : resets (wk m c t)
  · rw [accAt_first m c t h0]
    iintro ⟨⟨HΦ, ⟨HT0, HT1⟩⟩, Ho, ⟨%d0, H0⟩, ⟨%d1, H1⟩, ⟨%d2, H2⟩, ⟨%d3, H3⟩⟩
    iapply ((body_first c (grid0.coords t) _ _ _ _ _ _ _ _ (iblk m c 0 t) (iblk m c 1 t) (iblk m c 2 t) (k0_pay2 (F := F)) (tbl m 0) (tbl m 1) h0) Set.univ _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, H3, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    iexact H3
  · have hb : ∀ d, (dats m 0 c).before 3 t d = accAt m c (t.val - 1) (Nat.lt_of_le_of_lt (Nat.sub_le _ _) t.isLt) :=
      fun d => (before_3 m c t h0 d).2
    have ht : t.val ≠ 0 := (before_3 m c t h0 (fun _ => Classical.arbitrary _)).1
    simp only [hb]
    rw [accAt_next m c t h0 ht]
    iintro ⟨⟨HΦ, ⟨HT0, HT1⟩⟩, Ho, ⟨%d0, H0⟩, ⟨%d1, H1⟩, ⟨%d2, H2⟩, ⟨%d3, H3⟩⟩
    iapply ((body_next c (grid0.coords t) _ _ _ _ _ _ _ _ (iblk m c 0 t) (iblk m c 1 t) (iblk m c 2 t)
      (accAt m c (t.val - 1) (Nat.lt_of_le_of_lt (Nat.sub_le _ _) t.isLt)) (tbl m 0) (tbl m 1) h0) Set.univ _)
    isplitl [H0]; · iexact H0
    isplitl [H1]; · iexact H1
    isplitl [H2]; · iexact H2
    isplitl [H3]; · iexact H3
    isplitl [HT0]; · iexact HT0
    isplitl [HT1]; · iexact HT1
    iintro ⟨H0, H1, H2, H3, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    iexact H3

/-- The launch's obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates; the staged arrays end at the write-backs' recursion over the
    accumulator, every other buffer at the closing reshape of that memory. -/
theorem run_main : θ_run defs (onTc (τ := τ) (main (F := F))) (s₀ m ρ)
    (Pipeline.FramePost (Pipeline.pin pcfgs fun _ => adm m) (dats m) 0
      (Pipeline.afterTail pcfgs (fun _ => adm m) (dats m) 0 (V0 m) [hostOps1])) :=
  Pipeline.θ_run_frameP_around pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hpf := V_pre m) (hΦ := fun _ _ => rfl)

/-! ## The arguments end unchanged -/

/-- A buffer the launch does not stage and the closing reshape does not write ends as the launch found it. -/
theorem tail_of_unwritten (c : Dev nD) (b : Ref sig .tc) (hb : b ≠ main_v4) (harr : ∀ w, Pipeline.arrRef spec0 w ≠ b) :
    Pipeline.afterTail pcfgs (fun _ => adm m) (dats m) 0 (V0 m) [hostOps1] c b = V m c b := by
  unfold Pipeline.afterTail
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (V0 m c) _ b harr]

/-- Every weakly fair execution of @main terminates with the three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (by decide : main_arg0 ∈ Pipeline.restRefs sig spec0)).trans ((tail_of_unwritten m c main_arg0 (by decide) (by decide)).trans (V_main_arg0 m c)),
     ((h c).2 main_arg1 (by decide : main_arg1 ∈ Pipeline.restRefs sig spec0)).trans ((tail_of_unwritten m c main_arg1 (by decide) (by decide)).trans (V_main_arg1 m c)),
     ((h c).2 main_arg2 (by decide : main_arg2 ∈ Pipeline.restRefs sig spec0)).trans ((tail_of_unwritten m c main_arg2 (by decide) (by decide)).trans (V_main_arg2 m c))⟩)
    (run_main m ρ)

end Cert.KernelIdeal.Region

end
-- ==== Proof.Final.lean ====
/-
  The result array.  The output window is written back after the last key block of each query block, when the
  accumulator holds the sum over every key position up to the end of that query block; the remaining positions come
  after every row of the block, so their weights are exp ⊥ = 0 and the sum is already the full sum over the 2048
  positions.  The 64 blocks written back tile the [32, 2048, 128] result, which therefore ends at the three-axis
  specification of the arrays the launch found; the reshapes before and after the launch turn that into the
  specification of the arguments.
-/
import proofs.«157718_j17832704213564_2_alg».proof.Proof.AccValue
import proofs.«157718_j17832704213564_2_alg».proof.Proof.Run

set_option maxRecDepth 16384

noncomputable section

namespace Cert.KernelIdeal.Region

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Window)
open Cert.Spec3 Cert.BlockSum

variable (m : (ℓ : Loc nD τ sig) → Buf (Elt Ideal) ℓ) (ρ : Dev nD → PrngReg)

/-- A key position after row \`i\` contributes nothing. -/
theorem termOf_after (Q K W : A3.Idx → EReal) (b : Fin 32) (i : Fin 2048) (d : Fin 128) (j : ℕ) (h : i.val < j) :
    termOf Q K W b i d j = 0 := by
  unfold termOf
  split
  · unfold weight3; rw [if_neg (by show ¬j ≤ i.val; omega), Ideal.exp_bot, zero_mul]
  · rfl

/-- The sum of all 2048 terms is the three-axis specification. -/
theorem upTo_all (Q K W : A3.Idx → EReal) (b : Fin 32) (i : Fin 2048) (d : Fin 128) :
    upTo (termOf Q K W b i d) 2048 = attn3 Q K W (ix3 b i d) := by
  rw [upTo_fin]
  unfold attn3
  refine Finset.sum_congr rfl fun j _ => ?_
  unfold termOf
  rw [dif_pos j.isLt]

/-- WHAT A WRITE-BACK WRITES is its block of the three-axis specification of the arrays the launch found. -/
theorem flushed_eq (c : Dev nD) (t : Fin (cfgM m).N) (hf : ((cfgM m).win 3).flush t = true) :
    (dats m 0 c).flushed 3 t = (((cfgM m).win 3).blk t).view.read (Elt Ideal) (attn3 (Q3 m c) (K3 m c) (V3 m c)) := by
  show ((cfgM m).win 3).cut (grid0.coords t) ((dats m 0 c).after 3 t) = _
  rw [after_3]
  have hs : t.val % 6 = 1 ∨ t.val % 6 = 5 := by rw [flush_out] at hf; exact of_decide_eq_true hf
  refine funext (fun (y : S1x1024x128.Idx) => ?_)
  have hy0 : (y 0 : Fin 1) = (0 : Fin 1) := Fin.ext (by have h : (y 0).val < 1 := (y 0).isLt; show (y 0).val = 0; omega)
  have hy := eq_ix3 y
  rw [hy0] at hy
  obtain ⟨r, d, rfl⟩ : ∃ (r : Fin 1024) (d : Fin 128), y = ix3 0 r d := ⟨y 1, y 2, hy⟩
  have hq := qi_lt t
  have hi : qiN t * 1024 + r.val < 2048 := by have := r.isLt; omega
  show accAt m c t.val t.isLt (ix3 0 r d) = attn3 (Q3 m c) (K3 m c) (V3 m c) ((((cfgM m).win 3).blk t).view.emb (ix3 0 r d))
  rw [oblk_emb m t r d (ix3 ⟨bhN t, bh_lt t⟩ ⟨qiN t * 1024 + r.val, hi⟩ d) rfl rfl rfl,
    accAt_apply m c t.val t.isLt r d ⟨bhN t, bh_lt t⟩ ⟨qiN t * 1024 + r.val, hi⟩ rfl rfl,
    walk_done t hs, ← upTo_all]
  exact (upTo_of_tail_zero _ (by omega) fun j hj _ => termOf_after _ _ _ _ _ _ j (by show qiN t * 1024 + r.val < j; have := r.isLt; omega)).symm

/-- Every entry of the result lies in a block that is written back. -/
theorem covered (i : S32x2048x128.Idx) :
    ∃ t : Fin (cfgM m).N, ((cfgM m).win 3).flush t = true ∧ i ∈ (((cfgM m).win 3).blk t).view.set := by
  have h1 : (i 1).val < 2048 := (i 1).isLt
  obtain ⟨t, hs, hb, hq⟩ := walk_onto (i 0) ⟨(i 1).val / 1024, by omega⟩
  refine ⟨t, by rw [flush_out]; exact decide_eq_true hs, ?_⟩
  have hr : (i 1).val % 1024 < 1024 := Nat.mod_lt _ (by omega)
  rw [← oblk_emb m t ⟨(i 1).val % 1024, hr⟩ (i 2) i hb.symm (by rw [hq]; show (i 1).val = (i 1).val / 1024 * 1024 + (i 1).val % 1024; omega) rfl]
  exact (((cfgM m).win 3).blk t).view.emb_mem_set _

/-- THE RESULT ARRAY after the launch. -/
theorem final (c : Dev nD) : (dats m 0 c).arrAt 3 (cfgM m).N = attn3 (Q3 m c) (K3 m c) (V3 m c) :=
  (dats m 0 c).arrAt_eq_of_cover 3 _ (fun t hf => flushed_eq m c t hf) (covered m)

end Cert.KernelIdeal.Region

end
-- ==== Proof.Bits.Around.lean ====
/-
  The host lines around the one kernel launch of the kernel's @main as printed, at the word level (the same text as for the idealized
  kernel: nothing here looks inside a float), and the launch's two index tables.

  @main is: two constant tables (qi = [0,0,1,1,1,1] and ki = [0,1,0,1,2,3], the query block and the key block
  visited at each of the six steps of the triangular walk), three reshapes [2,16,2048,128] → [32,2048,128] of the
  arguments, the launch on the grid 32 × 6, and one reshape of the result back to [2,16,2048,128].  This module
  states what the launch finds in memory (V), that the tables it reads are those constants, that every block the
  tables select lies inside its array (so the launch is admissible, for every memory), and that the lines after the
  launch touch neither the arguments nor the tables.
-/
import proofs.«157718_j17832704213564_2_alg».proof.Proof.Gen.Kernel.Launch
import proofs.«157718_j17832704213564_2_alg».proof.Proof.Gen.Kernel.Skeleton
import Idealize.ShloMosaic.Lib.Pipeline.FrameBody
import Idealize.ShloMosaic.Lib.Pipeline.FrameSuffix
import Idealize.ShloMosaic.Lib.StableHlo.Run
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the launch finds -/

/-- Memory when the launch begins: the launch memory after the five host lines before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines, the launch, and then the one reshape after it. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-- The reshape after the launch reads the result array and writes the returned buffer: no table. -/
theorem tail_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl
  intro j; fin_cases j <;> simp only [StableHlo.reshape_bufs, Finset.mem_insert, Finset.mem_singleton, not_or] <;> and_intros <;> exact StableHlo.devRef_ne_of_ne (by decide)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes none of the four arrays the launch stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- A buffer none of the five lines before the launch writes is found as launched. -/
theorem V_of_unwritten (c : Dev nD) (b : Ref sig .tc) (hb : b ≠ main_c ∧ b ≠ main_c_0 ∧ b ≠ main_v0 ∧ b ≠ main_v1 ∧ b ≠ main_v2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2⟩))
theorem V_main_arg0 (c : Dev nD) : V m c main_arg0 = m ((c : Thread nD τ).loc main_arg0) := V_of_unwritten m c _ (by decide)
theorem V_main_arg1 (c : Dev nD) : V m c main_arg1 = m ((c : Thread nD τ).loc main_arg1) := V_of_unwritten m c _ (by decide)
theorem V_main_arg2 (c : Dev nD) : V m c main_arg2 = m ((c : Thread nD τ).loc main_arg2) := V_of_unwritten m c _ (by decide)

/-! ## The two tables -/

/-- The tables as the launch reads them (there is one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- The first table is the constant qi = [0,0,1,1,1,1]. -/
theorem tbl_qi : (tbl m 0 : S6.Idx → BitVec 32) = fun i => lit0 (S6.rowMajor i) := by
  show StableHlo.after hostOps0 (fun b => m ((0 : Dev nD), b)) (Proc.devRef .tc main_c) = _
  after_results; rfl
/-- The second table is the constant ki = [0,1,0,1,2,3]. -/
theorem tbl_ki : (tbl m 1 : S6.Idx → BitVec 32) = fun i => lit1 (S6.rowMajor i) := by
  show StableHlo.after hostOps0 (fun b => m ((0 : Dev nD), b)) (Proc.devRef .tc main_c_0) = _
  after_results; rfl

end Cert.Kernel.Region

end
-- ==== Proof.Bits.Body.lean ====
/-
  The kernel body, run once on whole staging buffers, in its two cases.

  At a grid point the body reads the step's two table words (query block number w₀ and key block number w₁),
  and, with Q, K, V the three input blocks,
    · if w₁ = 0 (the first key block of a query block) stores zeros into the output buffer first;
    · then computes the logits L = 2s·Q Kᵀ − s·|Q|² − s·|K|² (k0_pay4), masks them causally against the global
      row w₀·1024 + r and column w₁·512 + c, exponentiates, multiplies by V, and ADDS the product to what
      the output buffer holds (k0_pay1).
  So the output buffer ends at  k0_pay1 … 0  in the first case and at  k0_pay1 … (what it held)  in the second;
  the inputs and the tables are handed back unchanged.
-/
import proofs.«157718_j17832704213564_2_alg».proof.Proof.Bits.Around
import Idealize.ShloMosaic.Lib.Pipeline.Value

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two tables as the body is handed them: whole buffers in scalar memory, held read-only (half a share). -/
abbrev tbM0 : Memref sig .tc .smem S6 .i32 := Memref.whole main_c
abbrev htbM0 : tbM0.IsWhole := Memref.isWhole_whole _
abbrev tbM1 : Memref sig .tc .smem S6 .i32 := Memref.whole main_c_0
abbrev htbM1 : tbM1.IsWhole := Memref.isWhole_whole _
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The word the body reads from a table at the point's step. -/
abbrev word (c : Dev nD) (M : Memref sig .tc .smem S6 .i32) (i : grid0.Coords) (xt : TbBuf (F := F) c M) : BitVec 32 :=
  M.view.readAt (Elt F) (Rect.unit (s := S6) (k0_off1 i) S1.size (k0_off1_inb i)).toLoadRect xt (Shape.Idx.first (numel1_S1.symm ▸ Nat.one_pos))

/-- The body's one branch: the key block number is 0, as the body spells the test. -/
abbrev resets (w : BitVec 32) : Prop := (Scalar.cmpi .ne (Scalar.extui (Scalar.cmpi .eq w 0#32)) 0#32) = 1#1

/-- What the output buffer holds after the body, from the three input blocks, the two words and what the buffer
    held when the accumulation began (zeros in the first case). -/
abbrev bodyOut (x0 : Vec F S1x1024x128 .f32) (x1 x2 : Vec F S1x512x128 .f32) (w0 w1 : BitVec 32) (acc : Vec F S1x1024x128 .f32) :
    Vec F S1x1024x128 .f32 :=
  k0_pay1 (k0_pay3 x2) (k0_pay4 x0 x1) (k0_pay5 (F := F) w0) (Scalar.muli w1 512#32) acc

theorem hz3 : (![0, 0, 0] : Fin 3 → Nat) = fun _ => 0 := funext fun a => by fin_cases a <;> rfl

set_option maxHeartbeats 1000000 in
/-- FIRST key block of a query block (the key block number is 0): the buffer, whatever it held, is zeroed and then accumulated into. -/
theorem body_first (c : Dev nD) (i : grid0.Coords) (arg4 : Memref sig .tc .vmem S1x1024x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x1024x128 .f32) (harg7 : arg7.IsWhole)
    (x0 : Vec F S1x1024x128 .f32) (x1 : Vec F S1x512x128 .f32) (x2 : Vec F S1x512x128 .f32) (acc : Vec F S1x1024x128 .f32) (xt0 : TbBuf (F := F) c tbM0) (xt1 : TbBuf (F := F) c tbM1)
    (hc0 : resets (word c tbM1 i xt1)) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ tbPt c tbM0 xt0 ∗ tbPt c tbM1 xt1
            ∗ (iprop(owns (c : Thread nD τ) arg4 fullShare x0 ∗ owns (c : Thread nD τ) arg5 fullShare x1 ∗ owns (c : Thread nD τ) arg6 fullShare x2
                ∗ owns (c : Thread nD τ) arg7 fullShare (bodyOut x0 x1 x2 (word c tbM0 i xt0) (word c tbM1 i xt1) (k0_pay2 (F := F)))
                ∗ tbPt c tbM0 xt0 ∗ tbPt c tbM1 xt1) -∗ K ⟨⟩))
          ⊢ wp frame (wpE (defs₀ (F := F)) Variants.none c none) E (cc0__rbf_causal_kernel i tbM0 htbM0 tbM1 htbM1 arg4 harg4 arg5 harg5 arg6 harg6 arg7 harg7) K := by
    intro E K
    simp only [cc0__rbf_causal_kernel_eq_skeleton]; unfold cc0__rbf_causal_kernel_skel
    simp only [k0_part1_eq_skeleton]
    unfold owns
    iintro ⟨⟨%f0, %hf0, H0⟩, ⟨%f1, %hf1, H1⟩, ⟨%f2, %hf2, H2⟩, ⟨%d3, %f3, -, H3⟩, HT0, HT1, Hk⟩
    obtain rfl := harg4.eq_unread hf0; obtain rfl := harg5.eq_unread hf1; obtain rfl := harg6.eq_unread hf2
    sl_exec (disch := first | sl_exact hc0)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; swap; · iexact H3
      ipureintro
      rw [View.read_writes_eq_canon _ _ _ (fun y => ⟨_, List.mem_cons_self .., View.mem_set_unit_zero hz3 inb_S1x1024x128_S1x1024x128_0_0_0 y⟩),
        View.canon_cons_unit_zero hz3]
      sl_unfold_run_names
      have e0 : View.readAt (Elt F) arg4.view (Rect.unit (s := S1x1024x128) ![0, 0, 0] S1x1024x128.size inb_S1x1024x128_S1x1024x128_0_0_0).toLoadRect (harg4.unread x0) = x0 := by
        rw [View.readAt_eq_ld, harg4.read_unread, View.ld_unit_zero (S := S1x1024x128) hz3]
      have e1 : View.readAt (Elt F) arg5.view (Rect.unit (s := S1x512x128) ![0, 0, 0] S1x512x128.size inb_S1x512x128_S1x512x128_0_0_0).toLoadRect (harg5.unread x1) = x1 := by
        rw [View.readAt_eq_ld, harg5.read_unread, View.ld_unit_zero (S := S1x512x128) hz3]
      have e2 : View.readAt (Elt F) arg6.view (Rect.unit (s := S1x512x128) ![0, 0, 0] S1x512x128.size inb_S1x512x128_S1x512x128_0_0_0).toLoadRect (harg6.unread x2) = x2 := by
        rw [View.readAt_eq_ld, harg6.read_unread, View.ld_unit_zero (S := S1x512x128) hz3]
      have e3 : arg7.view.readCov [(⟨Rect.unit (s := S1x1024x128) ![0, 0, 0] S1x1024x128.size inb_S1x1024x128_S1x1024x128_0_0_0, k0_pay2 (F := F)⟩ : View.Piece (Elt F) S1x1024x128 .f32)]
          (Rect.unit (s := S1x1024x128) ![0, 0, 0] S1x1024x128.size inb_S1x1024x128_S1x1024x128_0_0_0).toLoadRect = k0_pay2 (F := F) :=
        View.readCov_unit_zero arg7.view hz3 inb_S1x1024x128_S1x1024x128_0_0_0 _
      rw [e0, e1, e2]
      exact congrArg (k0_pay1 (k0_pay3 x2) (k0_pay4 x0 x1) (k0_pay5 (F := F) (word c tbM0 i xt0)) (Scalar.muli (word c tbM1 i xt1) 512#32)) e3
    isplitl [HT0]; · iexact HT0
    iexact HT1

set_option maxHeartbeats 1000000 in
/-- A LATER key block (the key block number is not 0): the product is added to what the buffer holds. -/
theorem body_next (c : Dev nD) (i : grid0.Coords) (arg4 : Memref sig .tc .vmem S1x1024x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x1024x128 .f32) (harg7 : arg7.IsWhole)
    (x0 : Vec F S1x1024x128 .f32) (x1 : Vec F S1x512x128 .f32) (x2 : Vec F S1x512x128 .f32) (acc : Vec F S1x1024x128 .f32) (xt0 : TbBuf (F := F) c tbM0) (xt1 : TbBuf (F := F) c tbM1)
    (hc0 : ¬resets (word c tbM1 i xt1)) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare acc ∗ tbPt c tbM0 xt0 ∗ tbPt c tbM1 xt1
            ∗ (iprop(owns (c : Thread nD τ) arg4 fullShare x0 ∗ owns (c : Thread nD τ) arg5 fullShare x1 ∗ owns (c : Thread nD τ) arg6 fullShare x2
                ∗ owns (c : Thread nD τ) arg7 fullShare (bodyOut x0 x1 x2 (word c tbM0 i xt0) (word c tbM1 i xt1) acc)
                ∗ tbPt c tbM0 xt0 ∗ tbPt c tbM1 xt1) -∗ K ⟨⟩))
          ⊢ wp frame (wpE (defs₀ (F := F)) Variants.none c none) E (cc0__rbf_causal_kernel i tbM0 htbM0 tbM1 htbM1 arg4 harg4 arg5 harg5 arg6 harg6 arg7 harg7) K := by
    intro E K
    simp only [cc0__rbf_causal_kernel_eq_skeleton]; unfold cc0__rbf_causal_kernel_skel
    simp only [k0_part1_eq_skeleton]
    unfold owns
    iintro ⟨⟨%f0, %hf0, H0⟩, ⟨%f1, %hf1, H1⟩, ⟨%f2, %hf2, H2⟩, ⟨%f3, %hf3, H3⟩, HT0, HT1, Hk⟩
    obtain rfl := harg4.eq_unread hf0; obtain rfl := harg5.eq_unread hf1; obtain rfl := harg6.eq_unread hf2; obtain rfl := harg7.eq_unread hf3
    sl_exec (disch := first | sl_exact hc0)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; swap; · iexact H3
      ipureintro
      rw [View.read_writes_eq_canon _ _ _ (fun y => ⟨_, List.mem_cons_self .., View.mem_set_unit_zero hz3 inb_S1x1024x128_S1x1024x128_0_0_0 y⟩),
        View.canon_cons_unit_zero hz3]
      sl_unfold_run_names
      have e0 : View.readAt (Elt F) arg4.view (Rect.unit (s := S1x1024x128) ![0, 0, 0] S1x1024x128.size inb_S1x1024x128_S1x1024x128_0_0_0).toLoadRect (harg4.unread x0) = x0 := by
        rw [View.readAt_eq_ld, harg4.read_unread, View.ld_unit_zero (S := S1x1024x128) hz3]
      have e1 : View.readAt (Elt F) arg5.view (Rect.unit (s := S1x512x128) ![0, 0, 0] S1x512x128.size inb_S1x512x128_S1x512x128_0_0_0).toLoadRect (harg5.unread x1) = x1 := by
        rw [View.readAt_eq_ld, harg5.read_unread, View.ld_unit_zero (S := S1x512x128) hz3]
      have e2 : View.readAt (Elt F) arg6.view (Rect.unit (s := S1x512x128) ![0, 0, 0] S1x512x128.size inb_S1x512x128_S1x512x128_0_0_0).toLoadRect (harg6.unread x2) = x2 := by
        rw [View.readAt_eq_ld, harg6.read_unread, View.ld_unit_zero (S := S1x512x128) hz3]
      have e3 : View.readAt (Elt F) arg7.view (Rect.unit (s := S1x1024x128) ![0, 0, 0] S1x1024x128.size inb_S1x1024x128_S1x1024x128_0_0_0).toLoadRect (harg7.unread acc) = acc := by
        rw [View.readAt_eq_ld, harg7.read_unread, View.ld_unit_zero (S := S1x1024x128) hz3]
      rw [e0, e1, e2]
      exact congrArg (k0_pay1 (k0_pay3 x2) (k0_pay4 x0 x1) (k0_pay5 (F := F) (word c tbM0 i xt0)) (Scalar.muli (word c tbM1 i xt1) 512#32)) e3
    isplitl [HT0]; · iexact HT0
    iexact HT1

end Cert.Kernel.Region

end
-- ==== Proof.Bits.Tables.lean ====
/-
  The two index tables of the launch, read: at step s of the six-step walk the query block is qi s and the key block
  is ki s, with qi = [0,0,1,1,1,1] and ki = [0,1,0,1,2,3].  Every block they select lies inside its array (query
  blocks of 1024 rows: qi s ≤ 1; key blocks of 512 rows: ki s ≤ 3; 2048 rows in all), so the launch is admissible
  whatever the memory holds.
-/
import proofs.«157718_j17832704213564_2_alg».proof.Proof.Bits.Around

set_option maxRecDepth 16384

noncomputable section

namespace Cert.Kernel.Region

open Cert.Kernel Cert.Kernel.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ)

/-- The step as a table offset: a coordinate below 6 survives the round trip through a 32-bit word. -/
theorem off_val (i : grid0.Coords) : k0_off1 i 0 = (i 1).val := by
  have h6 : (i 1).val < 6 := (i 1).isLt
  show (Scalar.indexCast (BitVec.ofNat 32 (i 1).val)).toNat = (i 1).val
  simp only [Scalar.indexCast]
  rw [BitVec.toNat_ofNat]; omega

/-- The table cell read at a grid point is cell number "step". -/
theorem cell_val (i : grid0.Coords) :
    (S6.rowMajor ((Rect.unit (s := S6) (k0_off1 i) S1.size (k0_off1_inb i)).emb (Shape.Idx.first (numel1_S1.symm ▸ Nat.one_pos)))).val = (i 1).val := by
  rw [Shape.rowMajor_val_one, Rect.emb_apply]
  show k0_off1 i 0 + 1 * 0 = _
  rw [off_val]; omega

/-- The word of the first table read at a grid point: qi (step). -/
theorem qi_word (i : grid0.Coords) :
    (tbl m).at 0 (Rect.unit (s := S6) (k0_off1 i) S1.size (k0_off1_inb i)) numel1_S1 = lit0 ⟨(i 1).val, (i 1).isLt⟩ := by
  show tbl m 0 _ = _
  rw [tbl_qi]
  exact congrArg lit0 (Fin.ext (cell_val i))

/-- The word of the second table read at a grid point: ki (step). -/
theorem ki_word (i : grid0.Coords) :
    (tbl m).at 1 (Rect.unit (s := S6) (k0_off1 i) S1.size (k0_off1_inb i)) numel1_S1 = lit1 ⟨(i 1).val, (i 1).isLt⟩ := by
  show tbl m 1 _ = _
  rw [tbl_ki]
  exact congrArg lit1 (Fin.ext (cell_val i))

theorem qi_le : ∀ s : Fin 6, (lit0 s).toNat ≤ 1 := by decide
theorem ki_le : ∀ s : Fin 6, (lit1 s).toNat ≤ 3 := by decide

/-- The side condition of the launch at the tables the launch reads. -/
abbrev Ok : Prop := ok0 (F := F) (tbl m)

/-- A batch-head coordinate below 32 survives the round trip through a 32-bit word. -/
theorem bh_val (i : grid0.Coords) : (BitVec.ofNat 32 (i 0).val).toNat = (i 0).val := by
  have h : (i 0).val < 32 := (i 0).isLt
  rw [BitVec.toNat_ofNat]; omega

/-- Every selected block lies inside its array: the launch is admissible. -/
theorem ok : Ok m := by
  refine ⟨fun i => ⟨fun a => ?_, .inl rfl⟩, fun i => ⟨fun a => ?_, .inl rfl⟩, fun i => ⟨fun a => ?_, .inl rfl⟩, fun i => ⟨fun a => ?_, .inl rfl⟩⟩
  · match a with
    | ⟨0, _⟩ => show ((BitVec.ofNat 32 (i 0).val).toNat + 1) * 1 ≤ 32; rw [bh_val]; have h : (i 0).val < 32 := (i 0).isLt; omega
    | ⟨1, _⟩ =>
      show (((tbl m).at 0 (Rect.unit (s := S6) (k0_off1 i) S1.size (k0_off1_inb i)) numel1_S1).toNat + 1) * 1024 ≤ 2048
      rw [qi_word]; have := qi_le ⟨(i 1).val, (i 1).isLt⟩; omega
    | ⟨2, _⟩ => show ((0#32).toNat + 1) * 128 ≤ 128; decide
  · match a with
    | ⟨0, _⟩ => show ((BitVec.ofNat 32 (i 0).val).toNat + 1) * 1 ≤ 32; rw [bh_val]; have h : (i 0).val < 32 := (i 0).isLt; omega
    | ⟨1, _⟩ =>
      show (((tbl m).at 1 (Rect.unit (s := S6) (k0_off1 i) S1.size (k0_off1_inb i)) numel1_S1).toNat + 1) * 512 ≤ 2048
      rw [ki_word]; have := ki_le ⟨(i 1).val, (i 1).isLt⟩; omega
    | ⟨2, _⟩ => show ((0#32).toNat + 1) * 128 ≤ 128; decide
  · match a with
    | ⟨0, _⟩ => show ((BitVec.ofNat 32 (i 0).val).toNat + 1) * 1 ≤ 32; rw [bh_val]; have h : (i 0).val < 32 := (i 0).isLt; omega
    | ⟨1, _⟩ =>
      show (((tbl m).at 1 (Rect.unit (s := S6) (k0_off1 i) S1.size (k0_off1_inb i)) numel1_S1).toNat + 1) * 512 ≤ 2048
      rw [ki_word]; have := ki_le ⟨(i 1).val, (i 1).isLt⟩; omega
    | ⟨2, _⟩ => show ((0#32).toNat + 1) * 128 ≤ 128; decide
  · match a with
    | ⟨0, _⟩ => show ((BitVec.ofNat 32 (i 0).val).toNat + 1) * 1 ≤ 32; rw [bh_val]; have h : (i 0).val < 32 := (i 0).isLt; omega
    | ⟨1, _⟩ =>
      show (((tbl m).at 0 (Rect.unit (s := S6) (k0_off1 i) S1.size (k0_off1_inb i)) numel1_S1).toNat + 1) * 1024 ≤ 2048
      rw [qi_word]; have := qi_le ⟨(i 1).val, (i 1).isLt⟩; omega
    | ⟨2, _⟩ => show ((0#32).toNat + 1) * 128 ≤ 128; decide

/-- The tables as admissible contents, and the launch's configuration at them. -/
abbrev adm : (pcfg0 (F := F)).Adm := ⟨tbl m, ok m⟩
abbrev cfgM : Pipeline.Cfg sig Λ₀ := cfg0 (adm m)

end Cert.Kernel.Region

end
-- ==== Proof.Bits.Schedule.lean ====
/-
  The walk of the grid.  Point t of the 32 × 6 grid is batch-head t / 6 at step t % 6 of the triangular walk
  (query block qi, key block ki) = (0,0) (0,1) (1,0) (1,1) (1,2) (1,3).  The query window and the output window
  sit at block (t / 6, qi, 0) of their arrays, the key and value windows at block (t / 6, ki, 0).  So the output
  block changes after steps 1 and 5, which is where it is written back, and the accumulation restarts exactly at
  steps 0 and 2, where ki = 0.
-/
import proofs.«157718_j17832704213564_2_alg».proof.Proof.Bits.Tables

set_option maxRecDepth 16384

noncomputable section

namespace Cert.Kernel.Region

open Cert.Kernel Cert.Kernel.Gen
open Idealize.ShloMosaic Idealize.ShloMosaic.TcCoe Idealize.ShloMosaic.Tactic
open Idealize.SL Idealize.SL.Sem
open Idealize.ShloMosaic.Pipeline (Window)

variable {F : FTy → Type} [FloatOps F]
variable (m : (ℓ : Loc nD τ sig) → Buf (Elt F) ℓ)

/-- The block index of the query and output windows at a grid point, in closed form. -/
def ixQ (i : grid0.Coords) : Fin 3 → Nat := ![(i 0).val, (lit0 ⟨(i 1).val, (i 1).isLt⟩).toNat, 0]
/-- The block index of the key and value windows at a grid point, in closed form. -/
def ixK (i : grid0.Coords) : Fin 3 → Nat := ![(i 0).val, (lit1 ⟨(i 1).val, (i 1).isLt⟩).toNat, 0]

theorem ix_q (i : grid0.Coords) : cc0_transform_0 k0_off1_inb numel1_S1 (tbl m) i = ixQ i := funext fun a => by
  match a with
  | ⟨0, _⟩ => exact bh_val i
  | ⟨1, _⟩ => show ((tbl m).at 0 (Rect.unit (s := S6) (k0_off1 i) S1.size (k0_off1_inb i)) numel1_S1).toNat = _; rw [qi_word]; rfl
  | ⟨2, _⟩ => rfl
theorem ix_k (i : grid0.Coords) : cc0_transform_1 k0_off1_inb numel1_S1 (tbl m) i = ixK i := funext fun a => by
  match a with
  | ⟨0, _⟩ => exact bh_val i
  | ⟨1, _⟩ => show ((tbl m).at 1 (Rect.unit (s := S6) (k0_off1 i) S1.size (k0_off1_inb i)) numel1_S1).toNat = _; rw [ki_word]; rfl
  | ⟨2, _⟩ => rfl
theorem ix_v (i : grid0.Coords) : cc0_transform_2 k0_off1_inb numel1_S1 (tbl m) i = ixK i := funext fun a => by
  match a with
  | ⟨0, _⟩ => exact bh_val i
  | ⟨1, _⟩ => show ((tbl m).at 1 (Rect.unit (s := S6) (k0_off1 i) S1.size (k0_off1_inb i)) numel1_S1).toNat = _; rw [ki_word]; rfl
  | ⟨2, _⟩ => rfl
theorem ix_o (i : grid0.Coords) : cc0_transform_3 k0_off1_inb numel1_S1 (tbl m) i = ixQ i := funext fun a => by
  match a with
  | ⟨0, _⟩ => exact bh_val i
  | ⟨1, _⟩ => show ((tbl m).at 0 (Rect.unit (s := S6) (k0_off1 i) S1.size (k0_off1_inb i)) numel1_S1).toNat = _; rw [qi_word]; rfl
  | ⟨2, _⟩ => rfl

/-- A point's coordinates: batch-head t / 6, step t % 6. -/
theorem coords_closed : ∀ t : Fin grid0.N, (grid0.coords t 0).val = t.val / 6 ∧ (grid0.coords t 1).val = t.val % 6 := by
  decide +kernel

/-- The output block moves on after steps 1 and 5 (the last step of each query block), and only there. -/
theorem flush_closed : ∀ t : Fin grid0.N, Window.flushOf grid0 true ixQ t = decide (t.val % 6 = 1 ∨ t.val % 6 = 5) := by
  decide +kernel

/-- The output window is written back exactly after steps 1 and 5. -/
theorem flush_out (t : Fin (cfgM m).N) : ((cfgM m).win 3).flush t = decide (t.val % 6 = 1 ∨ t.val % 6 = 5) := by
  rw [Window.flush_eq_flushOf]
  show Window.flushOf grid0 true (cc0_transform_3 k0_off1_inb numel1_S1 (tbl m)) t = _
  rw [show cc0_transform_3 k0_off1_inb numel1_S1 (tbl m) = ixQ from funext (ix_o m)]
  exact flush_closed t

end Cert.Kernel.Region

end
-- ==== Proof.Bits.Data.lean ====
/-
  What the launch's staging buffers hold, point by point.

  The three input windows hold their blocks.  The output window's buffer is an accumulator: at a point whose key
  block number is 0 it restarts from zeros, at any other point it continues from what the point before left; after
  the last key block of a query block it is written back.  \`accAt\` is that recursion; the body's two cases (Body)
  are exactly its two branches, and between two points of one query block nothing touches the buffer.
-/
import proofs.«157718_j17832704213564_2_alg».proof.Proof.Bits.Body
import proofs.«157718_j17832704213564_2_alg».proof.Proof.Bits.Schedule

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Blocks and words at a point -/

/-- Window \`w\`'s block at point \`t\`, read off its array as the launch finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- The query block number and the key block number the body reads at point \`t\`. -/
abbrev wq (c : Dev nD) (t : Fin (cfgM m).N) : BitVec 32 := word c tbM0 (grid0.coords t) (tbl m 0)
abbrev wk (c : Dev nD) (t : Fin (cfgM m).N) : BitVec 32 := word c tbM1 (grid0.coords t) (tbl m 1)

/-- The word read from the second table is ki (step). -/
theorem wk_eq (c : Dev nD) (t : Fin (cfgM m).N) : wk m c t = lit1 ⟨(grid0.coords t 1).val, (grid0.coords t 1).isLt⟩ :=
  ki_word m (grid0.coords t)
/-- The word read from the first table is qi (step). -/
theorem wq_eq (c : Dev nD) (t : Fin (cfgM m).N) : wq m c t = lit0 ⟨(grid0.coords t 1).val, (grid0.coords t 1).isLt⟩ :=
  qi_word m (grid0.coords t)

/-- ki = 0 exactly at steps 0 and 2. -/
theorem resets_closed : ∀ s : Fin 6, resets (lit1 s) ↔ (s.val = 0 ∨ s.val = 2) := by decide

/-- The accumulation restarts at point \`t\` exactly when its step is 0 or 2. -/
theorem resets_iff (c : Dev nD) (t : Fin (cfgM m).N) : resets (wk m c t) ↔ (t.val % 6 = 0 ∨ t.val % 6 = 2) := by
  rw [wk_eq, resets_closed]
  have h := (coords_closed t).2
  show ((grid0.coords t 1).val = 0 ∨ (grid0.coords t 1).val = 2) ↔ _
  rw [h]

/-! ## The accumulator -/

/-- What the output buffer holds after point \`n\`: the body's result from the point's blocks and words, over zeros
    where the accumulation restarts and over what point \`n - 1\` left elsewhere. -/
def accAt (c : Dev nD) : (n : Nat) → (h : n < (cfgM m).N) → Vec F S1x1024x128 .f32
  | 0, h => bodyOut (iblk m c 0 ⟨0, h⟩) (iblk m c 1 ⟨0, h⟩) (iblk m c 2 ⟨0, h⟩) (wq m c ⟨0, h⟩) (wk m c ⟨0, h⟩) (k0_pay2 (F := F))
  | n + 1, h => bodyOut (iblk m c 0 ⟨n + 1, h⟩) (iblk m c 1 ⟨n + 1, h⟩) (iblk m c 2 ⟨n + 1, h⟩) (wq m c ⟨n + 1, h⟩) (wk m c ⟨n + 1, h⟩)
      (if resets (wk m c ⟨n + 1, h⟩) then k0_pay2 (F := F) else accAt c n (Nat.lt_of_succ_lt h))

theorem accAt_first (c : Dev nD) (t : Fin (cfgM m).N) (h : resets (wk m c t)) :
    accAt m c t.val t.isLt = bodyOut (iblk m c 0 t) (iblk m c 1 t) (iblk m c 2 t) (wq m c t) (wk m c t) (k0_pay2 (F := F)) := by
  obtain ⟨n, hn⟩ := t
  cases n with
  | zero => rfl
  | succ n => show bodyOut _ _ _ _ _ (if _ then _ else _) = _; rw [if_pos h]

theorem accAt_next (c : Dev nD) (t : Fin (cfgM m).N) (h : ¬resets (wk m c t)) (ht : t.val ≠ 0) :
    accAt m c t.val t.isLt = bodyOut (iblk m c 0 t) (iblk m c 1 t) (iblk m c 2 t) (wq m c t) (wk m c t)
      (accAt m c (t.val - 1) (Nat.lt_of_le_of_lt (Nat.sub_le _ _) t.isLt)) := by
  obtain ⟨n, hn⟩ := t
  cases n with
  | zero => exact absurd rfl ht
  | succ n => show bodyOut _ _ _ _ _ (if _ then _ else _) = _; rw [if_neg h]; rfl

/-! ## The launch's proof data -/

/-- On core \`c\`: the arrays as the launch finds them; after the body at point \`t\` each input's buffer at its block and
    the output's at the accumulator; the tables held read-only throughout. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = accAt m c t.val t.isLt := by dsimp only [dats]; try rfl

/-- An input's buffer holds its block at every point, fetched there or kept from the point before (the block index
    has not moved, and the body only reads it). -/
theorem before_0 (c : Dev nD) (t : Fin (cfgM m).N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin (cfgM m).N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-- Where the accumulation continues, the output buffer holds what the point before left: it was not written back
    in between (write-backs follow steps 1 and 5, continuations are steps 1, 3, 4, 5). -/
theorem before_3 (c : Dev nD) (t : Fin (cfgM m).N) (h : ¬resets (wk m c t)) (d) :
    t.val ≠ 0 ∧ (dats m 0 c).before 3 t d = accAt m c (t.val - 1) (Nat.lt_of_le_of_lt (Nat.sub_le _ _) t.isLt) := by
  have hs : ¬(t.val % 6 = 0 ∨ t.val % 6 = 2) := fun e => h ((resets_iff m c t).mpr e)
  have ht : t.val ≠ 0 := fun e => hs (.inl (by rw [e]))
  refine ⟨ht, ?_⟩
  have hfl : ((cfgM m).win 3).flush ⟨t.val - 1, Nat.lt_of_le_of_lt (Nat.sub_le _ _) t.isLt⟩ = false := by
    rw [flush_out]
    show decide ((t.val - 1) % 6 = 1 ∨ (t.val - 1) % 6 = 5) = false
    rw [decide_eq_false_iff_not]
    omega
  rw [(dats m 0 c).before_out_kept 3 rfl t ht hfl (fun _ => rfl) (fun _ _ => rfl) d]
  exact after_3 m c _

end Cert.Kernel.Region

end
-- ==== Proof.Bits.Run.lean ====
/-
  The launch, run: the body's two cases discharge the launch's obligation at every grid point, so every weakly fair
  execution of @main terminates with the four staged arrays at what the recursion of write-backs computes from the
  accumulator, and every other buffer at what the reshape after the launch makes of them.
-/
import proofs.«157718_j17832704213564_2_alg».proof.Proof.Bits.Data

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging buffer at point \`t\`. -/
abbrev ms0 (t : Fin (cfgM m).N) : Memref sig .tc .vmem S1x1024x128 .f32 := spec0_0.stage ((cfgM m).slots t 0)
abbrev ms1 (t : Fin (cfgM m).N) : Memref sig .tc .vmem S1x512x128 .f32 := spec0_1.stage ((cfgM m).slots t 1)
abbrev ms2 (t : Fin (cfgM m).N) : Memref sig .tc .vmem S1x512x128 .f32 := spec0_2.stage ((cfgM m).slots t 2)
abbrev ms3 (t : Fin (cfgM m).N) : Memref sig .tc .vmem S1x1024x128 .f32 := spec0_3.stage ((cfgM m).slots t 3)

/-- The body as the launch calls it at point \`t\`. -/
abbrev bodyAt (t : Fin (cfgM m).N) : Prog (TpuEff nD τ sig (Elt F) Λ₀ .tc) PUnit :=
  cc0__rbf_causal_kernel (grid0.coords t) (Memref.whole main_c) (Memref.isWhole_whole _) (Memref.whole main_c_0) (Memref.isWhole_whole _)
    (spec0_0.stage ((cfgM m).slots t 0)) (hstage0_0 (((cfgM m).slots t 0).cast nbuf0_0))
    (spec0_1.stage ((cfgM m).slots t 1)) (hstage0_1 (((cfgM m).slots t 1).cast nbuf0_1))
    (spec0_2.stage ((cfgM m).slots t 2)) (hstage0_2 (((cfgM m).slots t 2).cast nbuf0_2))
    (spec0_3.stage ((cfgM m).slots t 3)) (hstage0_3 (((cfgM m).slots t 3).cast nbuf0_3))

/-- The tables' read-only halves, one by one. -/
theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- What the body is called with at point \`t\`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t))

set_option maxHeartbeats 800000 in
/-- The body at any point: where the key block number is 0 the first case applies to whatever the output buffer
    holds; elsewhere the buffer holds the accumulator of the point before and the second case applies. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = iprop(Pipeline.ΦA spec0 c ∗ Pipeline.ΦT pre0 (tbl m) c) from rfl, PhiT_eq]
  by_cases h0 : resets (wk m c t)
  · rw [accAt_first m c t h0]
    iintro ⟨⟨HΦ, ⟨HT0, HT1⟩⟩, Ho, ⟨%d0, H0⟩, ⟨%d1, H1⟩, ⟨%d2, H2⟩, ⟨%d3, H3⟩⟩
    iapply ((body_first c (grid0.coords t) _ _ _ _ _ _ _ _ (iblk m c 0 t) (iblk m c 1 t) (iblk m c 2 t) (k0_pay2 (F := F)) (tbl m 0) (tbl m 1) h0) Set.univ _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, H3, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    iexact H3
  · have hb : ∀ d, (dats m 0 c).before 3 t d = accAt m c (t.val - 1) (Nat.lt_of_le_of_lt (Nat.sub_le _ _) t.isLt) :=
      fun d => (before_3 m c t h0 d).2
    have ht : t.val ≠ 0 := (before_3 m c t h0 (fun _ => Classical.arbitrary _)).1
    simp only [hb]
    rw [accAt_next m c t h0 ht]
    iintro ⟨⟨HΦ, ⟨HT0, HT1⟩⟩, Ho, ⟨%d0, H0⟩, ⟨%d1, H1⟩, ⟨%d2, H2⟩, ⟨%d3, H3⟩⟩
    iapply ((body_next c (grid0.coords t) _ _ _ _ _ _ _ _ (iblk m c 0 t) (iblk m c 1 t) (iblk m c 2 t)
      (accAt m c (t.val - 1) (Nat.lt_of_le_of_lt (Nat.sub_le _ _) t.isLt)) (tbl m 0) (tbl m 1) h0) Set.univ _)
    isplitl [H0]; · iexact H0
    isplitl [H1]; · iexact H1
    isplitl [H2]; · iexact H2
    isplitl [H3]; · iexact H3
    isplitl [HT0]; · iexact HT0
    isplitl [HT1]; · iexact HT1
    iintro ⟨H0, H1, H2, H3, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    iexact H3

/-- The launch's obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates; the staged arrays end at the write-backs' recursion over the
    accumulator, every other buffer at the closing reshape of that memory. -/
theorem run_main : θ_run defs (onTc (τ := τ) (main (F := F))) (s₀ m ρ)
    (Pipeline.FramePost (Pipeline.pin pcfgs fun _ => adm m) (dats m) 0
      (Pipeline.afterTail pcfgs (fun _ => adm m) (dats m) 0 (V0 m) [hostOps1])) :=
  Pipeline.θ_run_frameP_around pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hpf := V_pre m) (hΦ := fun _ _ => rfl)

/-! ## The arguments end unchanged -/

/-- A buffer the launch does not stage and the closing reshape does not write ends as the launch found it. -/
theorem tail_of_unwritten (c : Dev nD) (b : Ref sig .tc) (hb : b ≠ main_v4) (harr : ∀ w, Pipeline.arrRef spec0 w ≠ b) :
    Pipeline.afterTail pcfgs (fun _ => adm m) (dats m) 0 (V0 m) [hostOps1] c b = V m c b := by
  unfold Pipeline.afterTail
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (V0 m c) _ b harr]

/-- Every weakly fair execution of @main terminates with the three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (by decide : main_arg0 ∈ Pipeline.restRefs sig spec0)).trans ((tail_of_unwritten m c main_arg0 (by decide) (by decide)).trans (V_main_arg0 m c)),
     ((h c).2 main_arg1 (by decide : main_arg1 ∈ Pipeline.restRefs sig spec0)).trans ((tail_of_unwritten m c main_arg1 (by decide) (by decide)).trans (V_main_arg1 m c)),
     ((h c).2 main_arg2 (by decide : main_arg2 ∈ Pipeline.restRefs sig spec0)).trans ((tail_of_unwritten m c main_arg2 (by decide) (by decide)).trans (V_main_arg2 m c))⟩)
    (run_main m ρ)

end Cert.Kernel.Region

end
-- ==== Proof.RefSpec.lean ====
/-
  The reference program computes the specification.

  The reference is read one operation at a time (the generated module `Read`): squared norms of the query and key
  rows, the table of inner products ⟨q_i, k_j⟩, the logit  2s·⟨q_i, k_j⟩ − s·⟨q_i, q_i⟩ − s·⟨k_j, k_j⟩, the lower-triangular
  mask, the fill with −∞ above the diagonal, the exponential, and the product with the value rows.  Each stage is
  identified here, at one index written by its coordinates, with the corresponding piece of `Cert.Spec`:

    * `two_scale`      the product of the literals 2 and s is the literal 2s;
    * `tril_apply`     the mask at (i, j) is the bit 1 exactly when j ≤ i;
    * `logit_apply`    the masked stage's input at (b, h, i, j) is `Spec.logit`;
    * `weight_apply`   the exponential stage at (b, h, i, j) is `Spec.weight`;
    * `ref_is_attn`    the result is `Spec.attn`.

  Everything is over the extended reals: the fill −∞ is `⊥`, `exp ⊥ = 0`, and a float sum is its initial value 0
  plus the sum of its terms.
-/
import proofs.«157718_j17832704213564_2_alg».proof.Proof.Gen.ReferenceIdeal.Read
import proofs.«157718_j17832704213564_2_alg».proof.Proof.Spec

noncomputable section

namespace Cert.RefSpec

open Idealize.ShloMosaic Idealize.ShloMosaic.ValueIdx Cert.ReferenceIdeal Cert.ReferenceIdeal.Read Cert.Spec
open scoped BigOperators

/-! ## The literals

A single-precision pattern with sign 0, exponent field `E` (neither 0 nor 255) and fraction field `T` denotes
`(2^23 + T) · 2^(E − 127 − 23)`.  The pattern `0x3DB504F3` has `E = 123`, `T = 0x3504F3 = 3474675`, so
`s = 11863283 / 2^27`; `0x3E3504F3` has the same fraction and `E = 124`, so it is `11863283 / 2^26 = 2s`; and
`0x40000000` (`E = 128`, `T = 0`) is 2. -/

/-- The pattern `0x40000000` is the number 2. -/
theorem ofBits_two : Ideal.ofBits .f32 0x40000000#32 = ((2 : ℝ) : EReal) := by
  simp [Ideal.ofBits, Ideal.ieee, -EReal.coe_mul]; norm_num

/-- `s = 11863283 / 2^27`. -/
theorem scale_eq : scale = ((11863283 / 134217728 : ℝ) : EReal) := by
  unfold scale
  simp [Ideal.ofBits, Ideal.ieee, -EReal.coe_mul]; norm_num

/-- `2s = 11863283 / 2^26`. -/
theorem scale2_eq : scale2 = ((11863283 / 67108864 : ℝ) : EReal) := by
  unfold scale2
  simp [Ideal.ofBits, Ideal.ieee, -EReal.coe_mul]; norm_num

/-- The product the reference forms from the literals 2 and `s` is the literal `2s`: doubling a normal
    single-precision number raises its exponent field by one and is exact. -/
theorem two_scale : Ideal.ofBits .f32 0x40000000#32 * Ideal.ofBits .f32 0x3DB504F3#32 = scale2 := by
  have hs : Ideal.ofBits .f32 0x3DB504F3#32 = scale := rfl
  rw [hs, ofBits_two, scale_eq, scale2_eq, ← EReal.coe_mul]
  norm_num

/-- The pattern `0xFF800000` (sign 1, exponent field all ones, fraction 0) is −∞. -/
theorem ofBits_neg_inf : Ideal.ofBits .f32 0xFF800000#32 = ⊥ := by
  simp [Ideal.ofBits, Ideal.ieee]

/-! ## The lower-triangular mask

The reference builds the mask from two 32-bit counters: the row number plus the diagonal offset 0, compared
"signed ≥" with the column number.  Rows and columns are below 2048 < 2^31, so the words carry the numbers
themselves and the signed comparison is the comparison of the numbers. -/

/-- A number below 2048, written as a 32-bit word, reads back as itself when the word is taken as a signed integer. -/
theorem toInt_ofNat_small (n : Nat) (hn : n < 2048) : (BitVec.ofNat 32 n).toInt = (n : Int) := by
  have h1 : (BitVec.ofNat 32 n).toNat = n := by
    rw [BitVec.toNat_ofNat]; omega
  rw [BitVec.toInt_eq_toNat_of_lt (by rw [h1]; omega), h1]

/-- For positions below 2048 the signed test "row + 0 ≥ column" on 32-bit words is the bit 1 exactly when
    column ≤ row. -/
theorem tril_bit (i j : Fin 2048) :
    IntOp.cmpi .sge (IntOp.addi (BitVec.ofNat 32 i.val) 0#32) (BitVec.ofNat 32 j.val)
      = if j.val ≤ i.val then 1#1 else 0#1 := by
  unfold IntOp.cmpi IntOp.addi
  rw [BitVec.add_zero]
  show BitVec.ofBool ((BitVec.ofNat 32 j.val).sle (BitVec.ofNat 32 i.val)) = _
  rw [BitVec.sle, toInt_ofNat_small _ j.isLt, toInt_ofNat_small _ i.isLt]
  by_cases h : j.val ≤ i.val
  · rw [if_pos h, decide_eq_true (by exact_mod_cast h)]; rfl
  · rw [if_neg h, decide_eq_false (by exact_mod_cast h)]; rfl

/-- The reference's mask at row `i`, column `j`: the bit 1 on and below the diagonal, the bit 0 above it.  (The mask
    is "where the comparison holds take the all-ones table, elsewhere the all-zeros table".) -/
theorem tril_apply (i j : Fin 2048) :
    val_main_v19 (F := Ideal) (ix2 i j) = if j.val ≤ i.val then 1#1 else 0#1 := by
  rw [val_main_v19_apply, val_main_call0_v4_apply, val_main_call0_v2_apply, val_main_call0_v0_apply,
    val_main_call0_v1_apply, val_main_call0_c_apply, val_main_call0_v3_apply, val_main_v18_apply, val_main_c_apply,
    val_main_call0_v5_apply, val_main_call0_c_0_apply]
  show Scalar.select (IntOp.cmpi .sge (IntOp.addi (BitVec.ofNat 32 i.val) 0#32) (BitVec.ofNat 32 j.val)) 1#1 0#1 = _
  rw [tril_bit]
  by_cases h : j.val ≤ i.val
  · rw [if_pos h]; exact select_one _ _
  · rw [if_neg h]; exact select_zero _ _

/-! ## Which element each stage reads

Every layout operation and every contraction of the reference reads its operand at an index computed from the
result's index.  At a result index given by its coordinates these are again indices given by coordinates: a row sum
at (b, h, i) runs over the row (b, h, i, ·); the inner-product table at (b, h, i, j) pairs the rows (b, h, i, ·) of `q`
and (b, h, j, ·) of `k`; the two broadcasts of the squared norms to (b, h, i, j) read the query's at (b, h, i) and the
key's at (b, h, j); the mask is read at (i, j); and the result at (b, h, i, d) pairs the weight row (b, h, i, ·) with the
column (b, h, ·, d) of `v`.  Each is checked coordinate by coordinate. -/

/-- The sum of squares of the query row (b, h, i) runs over the elements (b, h, i, e). -/
theorem rowSum_q_idx (b : Fin 2) (h : Fin 16) (i : Fin 2048) (e : Fin 128) :
    idx_main_v1 (ix3 b h i) e = ix4 b h i e := by
  funext a; match a with | ⟨0, _⟩ => rfl | ⟨1, _⟩ => rfl | ⟨2, _⟩ => rfl | ⟨3, _⟩ => rfl

/-- The sum of squares of the key row (b, h, j) runs over the elements (b, h, j, e). -/
theorem rowSum_k_idx (b : Fin 2) (h : Fin 16) (j : Fin 2048) (e : Fin 128) :
    idx_main_v5 (ix3 b h j) e = ix4 b h j e := by
  funext a; match a with | ⟨0, _⟩ => rfl | ⟨1, _⟩ => rfl | ⟨2, _⟩ => rfl | ⟨3, _⟩ => rfl

/-- The inner product at (b, h, i, j) reads the query at (b, h, i, e) … -/
theorem inner_q_idx (b : Fin 2) (h : Fin 16) (i j : Fin 2048) (e : Fin 128) :
    lidx_main_v8 (ix4 b h i j) e = ix4 b h i e := by
  funext a; match a with | ⟨0, _⟩ => rfl | ⟨1, _⟩ => rfl | ⟨2, _⟩ => rfl | ⟨3, _⟩ => rfl

/-- … and the key at (b, h, j, e). -/
theorem inner_k_idx (b : Fin 2) (h : Fin 16) (i j : Fin 2048) (e : Fin 128) :
    ridx_main_v8 (ix4 b h i j) e = ix4 b h j e := by
  funext a; match a with | ⟨0, _⟩ => rfl | ⟨1, _⟩ => rfl | ⟨2, _⟩ => rfl | ⟨3, _⟩ => rfl

/-- The query's squared norm, broadcast along the key axis, is read at (b, h, i). -/
theorem bcast_q_idx (b : Fin 2) (h : Fin 16) (i j : Fin 2048) :
    idx_main_v12 (idx_main_v13 (ix4 b h i j)) = ix3 b h i := by
  funext a; match a with | ⟨0, _⟩ => rfl | ⟨1, _⟩ => rfl | ⟨2, _⟩ => rfl

/-- The key's squared norm, broadcast along the query axis, is read at (b, h, j). -/
theorem bcast_k_idx (b : Fin 2) (h : Fin 16) (i j : Fin 2048) :
    idx_main_v15 (idx_main_v16 (ix4 b h i j)) = ix3 b h j := by
  funext a; match a with | ⟨0, _⟩ => rfl | ⟨1, _⟩ => rfl | ⟨2, _⟩ => rfl

/-- The mask, broadcast over batch and head, is read at (i, j). -/
theorem mask_idx (b : Fin 2) (h : Fin 16) (i j : Fin 2048) :
    idx_main_call1_v1 (ix4 b h i j) = ix2 i j := by
  funext a; match a with | ⟨0, _⟩ => rfl | ⟨1, _⟩ => rfl

/-- The result at (b, h, i, d) reads the weight at (b, h, i, j) … -/
theorem out_w_idx (b : Fin 2) (h : Fin 16) (i : Fin 2048) (d : Fin 128) (j : Fin 2048) :
    lidx_main_v22 (ix4 b h i d) j = ix4 b h i j := by
  funext a; match a with | ⟨0, _⟩ => rfl | ⟨1, _⟩ => rfl | ⟨2, _⟩ => rfl | ⟨3, _⟩ => rfl

/-- … and the value at (b, h, j, d). -/
theorem out_v_idx (b : Fin 2) (h : Fin 16) (i : Fin 2048) (d : Fin 128) (j : Fin 2048) :
    ridx_main_v22 (ix4 b h i d) j = ix4 b h j d := by
  funext a; match a with | ⟨0, _⟩ => rfl | ⟨1, _⟩ => rfl | ⟨2, _⟩ => rfl | ⟨3, _⟩ => rfl

/-! ## The logit -/

/-- `s · ⟨q_i, q_i⟩`: the scaled sum of squares of the query row (b, h, i).  The float sum starts from 0. -/
theorem qsq_apply (q : A4.Idx → EReal) (b : Fin 2) (h : Fin 16) (i : Fin 2048) :
    val_main_v3 (F := Ideal) q (ix3 b h i) = scale * ∑ e : Fin 128, q (ix4 b h i e) * q (ix4 b h i e) := by
  rw [val_main_v3_apply, val_main_v2_apply, val_main_cst_0_apply, val_main_v1_apply, val_main_cst_apply]
  simp only [rowSum_q_idx, val_main_v0_apply]
  show Ideal.ofBits .f32 0x3DB504F3#32 * (Ideal.ofBits .f32 0x00000000#32 + _) = _
  rw [Ideal.ofBits_zero_f32, zero_add]
  rfl

/-- `s · ⟨k_j, k_j⟩`: the scaled sum of squares of the key row (b, h, j). -/
theorem ksq_apply (k : A4.Idx → EReal) (b : Fin 2) (h : Fin 16) (j : Fin 2048) :
    val_main_v7 (F := Ideal) k (ix3 b h j) = scale * ∑ e : Fin 128, k (ix4 b h j e) * k (ix4 b h j e) := by
  rw [val_main_v7_apply, val_main_v6_apply, val_main_cst_2_apply, val_main_v5_apply, val_main_cst_1_apply]
  simp only [rowSum_k_idx, val_main_v4_apply]
  show Ideal.ofBits .f32 0x3DB504F3#32 * (Ideal.ofBits .f32 0x00000000#32 + _) = _
  rw [Ideal.ofBits_zero_f32, zero_add]
  rfl

/-- `2s · ⟨q_i, k_j⟩`: the inner-product table times the product of the literals 2 and `s`. -/
theorem qk_apply (q k : A4.Idx → EReal) (b : Fin 2) (h : Fin 16) (i j : Fin 2048) :
    val_main_v11 (F := Ideal) q k (ix4 b h i j) = scale2 * ∑ e : Fin 128, q (ix4 b h i e) * k (ix4 b h j e) := by
  rw [val_main_v11_apply, val_main_v10_apply, val_main_v9_apply, val_main_cst_3_apply, val_main_cst_4_apply,
    val_main_v8_apply]
  simp only [inner_q_idx, inner_k_idx]
  show (Ideal.ofBits .f32 0x40000000#32 * Ideal.ofBits .f32 0x3DB504F3#32) * _ = _
  rw [two_scale]

/-- The stage the mask is applied to, at (b, h, i, j), is the specification's logit. -/
theorem logit_apply (q k : A4.Idx → EReal) (b : Fin 2) (h : Fin 16) (i j : Fin 2048) :
    val_main_v17 (F := Ideal) q k (ix4 b h i j) = logit q k b h i j := by
  rw [val_main_v17_apply, val_main_v14_apply, qk_apply, val_main_v13_apply, val_main_v12_apply, bcast_q_idx, qsq_apply,
    val_main_v16_apply, val_main_v15_apply, bcast_k_idx, ksq_apply]
  rfl

/-! ## The weight -/

/-- The exponential stage at (b, h, i, j) is the specification's weight: on and below the diagonal the mask bit is 1
    and the select keeps the logit; above it the bit is 0 and the select takes the fill −∞. -/
theorem weight_apply (q k : A4.Idx → EReal) (b : Fin 2) (h : Fin 16) (i j : Fin 2048) :
    val_main_v21 (F := Ideal) q k (ix4 b h i j) = weight q k b h i j := by
  rw [val_main_v21_apply, val_main_v20_apply, val_main_call1_v1_apply, mask_idx, tril_apply, logit_apply,
    val_main_call1_v2_apply, val_main_call1_v0_apply, val_main_cst_5_apply]
  show Ideal.exp (Scalar.select (if j.val ≤ i.val then 1#1 else 0#1) (logit q k b h i j)
    (Ideal.ofBits .f32 0xFF800000#32)) = _
  rw [ofBits_neg_inf]
  unfold weight
  by_cases hji : j.val ≤ i.val
  · rw [if_pos hji, if_pos hji, select_one]
  · rw [if_neg hji, if_neg hji, select_zero]

/-! ## The result -/

/-- The reference's result is the specification: at (b, h, i, d) it is the sum over the key position `j` of the weight
    at (b, h, i, j) times the value at (b, h, j, d). -/
theorem ref_is_attn (q k v : A4.Idx → EReal) : val_main_v22 (F := Ideal) q k v = attn q k v := by
  funext x
  obtain ⟨b, h, i, d, rfl⟩ : ∃ (b : Fin 2) (h : Fin 16) (i : Fin 2048) (d : Fin 128), x = ix4 b h i d :=
    ⟨x 0, x 1, x 2, x 3, eq_ix4 x⟩
  rw [val_main_v22_apply]
  simp only [out_w_idx, out_v_idx, weight_apply]
  rfl

end Cert.RefSpec

end
-- ==== Proof.Claims.lean ====
/-
  The five claims.

  Frames: both kernels (as printed, and idealized) run through the launch with the accumulator's recursion as proof
  data, which leaves the arguments untouched; the reference's frame is its run with the result dropped.  The one
  ledger entry names the mask's fill -1e30 as ⊥.  Algebraic: the idealized kernel's result is the closing reshape of
  the result array, that is of the three-axis specification of the merged arguments, which is the specification of
  the arguments; the reference's result is the same specification.
-/
import proofs.«157718_j17832704213564_2_alg».proof.Defs
import proofs.«157718_j17832704213564_2_alg».proof.Proof.Final
import proofs.«157718_j17832704213564_2_alg».proof.Proof.Bits.Run
import proofs.«157718_j17832704213564_2_alg».proof.Proof.RefSpec
import proofs.«157718_j17832704213564_2_alg».proof.Proof.Gen.ReferenceIdeal.Run
import proofs.«157718_j17832704213564_2_alg».proof.Proof.Gen.ReferenceIdeal.Read
import proofs.«157718_j17832704213564_2_alg».proof.Proof.Gen.Kernel
import proofs.«157718_j17832704213564_2_alg».proof.Proof.Gen.KernelIdeal
import proofs.«157718_j17832704213564_2_alg».proof.Proof.Gen.ReferenceIdeal
import proofs.«157718_j17832704213564_2_alg».proof.Proof.Gen.Pre_finite_inputs

set_option maxRecDepth 16384

noncomputable section

namespace Cert.KernelIdeal.Region

open Cert.KernelIdeal Cert.KernelIdeal.Gen
open Idealize.ShloMosaic Idealize.ShloMosaic.TcCoe Idealize.ShloMosaic.Tactic Idealize.ShloMosaic.ValueIdx
open Idealize.SL Idealize.SL.Sem
open Cert.Spec3

variable (m : (ℓ : Loc nD τ sig) → Buf (Elt Ideal) ℓ) (ρ : Dev nD → PrngReg)

/-- The three arrays the launch finds are the arguments with batch and head merged. -/
theorem Q3_eq (c : Dev nD) : Q3 m c = shapeCast A3 (m ((c : Thread nD τ).loc main_arg0) : Cert.Spec.A4.Idx → EReal) shapeCasts_S2x16x2048x128_S32x2048x128 := by
  show StableHlo.after hostOps0 (fun b => m (c, b)) (Proc.devRef .tc main_v0) = _
  after_results; rfl
theorem K3_eq (c : Dev nD) : K3 m c = shapeCast A3 (m ((c : Thread nD τ).loc main_arg1) : Cert.Spec.A4.Idx → EReal) shapeCasts_S2x16x2048x128_S32x2048x128 := by
  show StableHlo.after hostOps0 (fun b => m (c, b)) (Proc.devRef .tc main_v1) = _
  after_results; rfl
theorem V3_eq (c : Dev nD) : V3 m c = shapeCast A3 (m ((c : Thread nD τ).loc main_arg2) : Cert.Spec.A4.Idx → EReal) shapeCasts_S2x16x2048x128_S32x2048x128 := by
  show StableHlo.after hostOps0 (fun b => m (c, b)) (Proc.devRef .tc main_v2) = _
  after_results; rfl

/-- THE RETURNED BUFFER: the closing reshape of the result array is the specification of the arguments. -/
theorem result_eq (c : Dev nD) :
    (Pipeline.afterTail pcfgs (fun _ => adm m) (dats m) 0 (V0 m) [hostOps1] c main_v4 : Cert.Spec.A4.Idx → EReal)
      = Cert.Spec.attn (m ((c : Thread nD τ).loc main_arg0)) (m ((c : Thread nD τ).loc main_arg1)) (m ((c : Thread nD τ).loc main_arg2)) := by
  unfold Pipeline.afterTail
  show StableHlo.after hostOps1 _ (Proc.devRef .tc main_v4) = _
  after_results
  have hw : Pipeline.withArrays (Pipeline.pin pcfgs (fun _ => adm m) 0).spec c (V0 m c)
      (fun w => (dats m 0 c).arrAt w (Pipeline.pin pcfgs (fun _ => adm m) 0).N) (Proc.devRef .tc main_v3)
        = attn3 (Q3 m c) (K3 m c) (V3 m c) :=
    (Pipeline.withArrays_arr spec0 winFacts0.arr_inj c _ _ 3).trans (final m c)
  show shapeCast Cert.Spec.A4 (Pipeline.withArrays (Pipeline.pin pcfgs (fun _ => adm m) 0).spec c (V0 m c)
      (fun w => (dats m 0 c).arrAt w (Pipeline.pin pcfgs (fun _ => adm m) 0).N) (Proc.devRef .tc main_v3)) shapeCasts_S32x2048x128_S2x16x2048x128 = _
  rw [hw, Q3_eq, K3_eq, V3_eq]
  exact attn_reshape _ _ _ _ _

/-- The idealized kernel's run, read: the returned buffer at the specification, the arguments unchanged. -/
theorem run_value : θ_run defs (onTc (τ := τ) (main (F := Ideal))) ⟨m, fun _ => 0, ρ⟩ (fun r => ∀ c : Dev nD,
      r.2.mem ((c.tc : Thread nD τ).loc main_v4) = Cert.Spec.attn (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (by decide : main_v4 ∈ Pipeline.restRefs sig spec0)).trans (result_eq m c),
     ((h c).2 main_arg0 (by decide : main_arg0 ∈ Pipeline.restRefs sig spec0)).trans ((tail_of_unwritten m c main_arg0 (by decide) (by decide)).trans (V_main_arg0 m c)),
     ((h c).2 main_arg1 (by decide : main_arg1 ∈ Pipeline.restRefs sig spec0)).trans ((tail_of_unwritten m c main_arg1 (by decide) (by decide)).trans (V_main_arg1 m c)),
     ((h c).2 main_arg2 (by decide : main_arg2 ∈ Pipeline.restRefs sig spec0)).trans ((tail_of_unwritten m c main_arg2 (by decide) (by decide)).trans (V_main_arg2 m c))⟩)
    (run_main m ρ)

end Cert.KernelIdeal.Region

namespace Cert.Proof.Claims

open Idealize.ShloMosaic Idealize.SL.Sem

theorem frame_k : Cert.frame_Kernel := fun m ρ _ => Cert.Kernel.Region.frame (F := Bits) m ρ
theorem frame_ki : Cert.frame_KernelIdeal := fun m ρ _ => Cert.KernelIdeal.Region.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the table gives "neg_big" the value ⊥. -/
theorem preserves : Cert.preserves_Kernel_KernelIdeal :=
  IdealRules.named_const.statement Cert.KernelIdeal.κ "neg_big" .f32 0xF149F2CA#32 ⊥ rfl

/-- Both programs end at the specification of the (agreeing) arguments. -/
theorem algebraic : Cert.algebraic_KernelIdeal_ReferenceIdeal := by
  intro m ρ m' ρ' _ hagree
  refine ⟨fun c => Cert.Spec.attn (m ((c.tc : Thread _ _).loc Cert.KernelIdeal.main_arg0)) (m ((c.tc : Thread _ _).loc Cert.KernelIdeal.main_arg1)) (m ((c.tc : Thread _ _).loc Cert.KernelIdeal.main_arg2)),
    Cert.KernelIdeal.Region.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.RefSpec.ref_is_attn, (hagree c).1, (hagree c).2.1, (hagree c).2.2]

end Cert.Proof.Claims

end
-- ==== Proof.lean ====
/-
  Unnormalised causal attention with a Gaussian weight: the Pallas kernel against its jnp reference, over the
  extended reals.

  For q, k, v : [2, 16, 2048, 128] both programs return  out(b, h, i, d) = Σ_{j ≤ i} exp(ℓ(b, h, i, j)) · v(b, h, j, d)
  with ℓ = 2s⟨q_i, k_j⟩ − s⟨q_i, q_i⟩ − s⟨k_j, k_j⟩ (Proof/Spec.lean).  The reference computes the full 2048 × 2048 weight
  matrix with −∞ above the diagonal and one matrix product (Proof/RefSpec.lean).  The kernel walks, for each of the
  32 batch-heads, the six (query block, key block) pairs that meet the causal triangle, adds one key block's
  products into the resident output block at each step, and writes the block back after its last key block
  (Proof/Body.lean … Proof/Final.lean); the key blocks it never visits lie wholly after the query block, where
  every weight is exp(−∞) = 0.  The two sides differ by the grouping of one sum and by the literal 2s, which is
  exactly twice the literal s; nothing needs the inputs to be finite.
-/
import proofs.«157718_j17832704213564_2_alg».proof.Defs
import proofs.«157718_j17832704213564_2_alg».proof.Proof.Gen.Kernel
import proofs.«157718_j17832704213564_2_alg».proof.Proof.Gen.Kernel.Skeleton
import proofs.«157718_j17832704213564_2_alg».proof.Proof.Gen.Kernel.Launch
import proofs.«157718_j17832704213564_2_alg».proof.Proof.Gen.Kernel.Flash
import proofs.«157718_j17832704213564_2_alg».proof.Proof.Gen.KernelIdeal
import proofs.«157718_j17832704213564_2_alg».proof.Proof.Gen.KernelIdeal.Skeleton
import proofs.«157718_j17832704213564_2_alg».proof.Proof.Gen.KernelIdeal.Launch
import proofs.«157718_j17832704213564_2_alg».proof.Proof.Gen.KernelIdeal.Flash
import proofs.«157718_j17832704213564_2_alg».proof.Proof.Gen.ReferenceIdeal
import proofs.«157718_j17832704213564_2_alg».proof.Proof.Gen.Pre_finite_inputs
import proofs.«157718_j17832704213564_2_alg».proof.Proof.Gen.ReferenceIdeal.Run
import proofs.«157718_j17832704213564_2_alg».proof.Proof.Gen.ReferenceIdeal.Read
import proofs.«157718_j17832704213564_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
